-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x128x134 : Shape := ⟨3, ![2, 128, 134]⟩
abbrev S2x128x65536 : Shape := ⟨3, ![2, 128, 65536]⟩
abbrev S2x64x65536 : Shape := ⟨3, ![2, 64, 65536]⟩
abbrev S2x64 : Shape := ⟨2, ![2, 64]⟩
abbrev S2 : Shape := ⟨1, ![2]⟩
abbrev S_ : Shape := ⟨0, ![]⟩

class Facts : Prop where
  bcast_S_S2x128x134 : S_.BroadcastsInDim S2x128x134 (![] : Fin 0 → Fin S2x128x134.rank)
  reducesTo_S2x128x134_S_d0_1_2 : S2x128x134.ReducesTo [0, 1, 2] S_
  h_S_ : 0 < S_.numel
  bcast_S_S2x128x65536 : S_.BroadcastsInDim S2x128x65536 (![] : Fin 0 → Fin S2x128x65536.rank)
  reducesTo_S2x128x65536_S_d0_1_2 : S2x128x65536.ReducesTo [0, 1, 2] S_
  bcast_S_S2x64x65536 : S_.BroadcastsInDim S2x64x65536 (![] : Fin 0 → Fin S2x64x65536.rank)
  reducesTo_S2x64x65536_S_d0_1_2 : S2x64x65536.ReducesTo [0, 1, 2] S_

variable [Facts]

def fn {F : FTy → Type} [FloatOps F] (main_arg0 : FVec F S2x128x134 .f32) (main_arg1 : FVec F S2x128x65536 .f32) (main_arg2 : FVec F S2x64x65536 .f32) (main_arg3 : IVec S2x64 32) (main_arg4 : IVec S2 32) : IVec S_ 1 :=
  let main_v0 : FVec F S2x128x134 .f32 := Host.absf main_arg0
  let main_cst : FVec F S_ .f32 := constant S_ .f32 0x7F800000#32
  let main_v1 : FVec F S2x128x134 .f32 := broadcastInDim S2x128x134 ![] bcast_S_S2x128x134 main_cst
  let main_v2 : IVec S2x128x134 1 := cmpf .olt main_v0 main_v1
  let main_c : IVec S_ 1 := constantI S_ 1 1#1
  let main_v3 : IVec S_ 1 := (fun x v => Host.reduce IntOp.andi x v reducesTo_S2x128x134_S_d0_1_2 h_S_) main_v2 main_c
  let main_v4 : FVec F S2x128x65536 .f32 := Host.absf main_arg1
  let main_cst_0 : FVec F S_ .f32 := constant S_ .f32 0x7F800000#32
  let main_v5 : FVec F S2x128x65536 .f32 := broadcastInDim S2x128x65536 ![] bcast_S_S2x128x65536 main_cst_0
  let main_v6 : IVec S2x128x65536 1 := cmpf .olt main_v4 main_v5
  let main_c_1 : IVec S_ 1 := constantI S_ 1 1#1
  let main_v7 : IVec S_ 1 := (fun x v => Host.reduce IntOp.andi x v reducesTo_S2x128x65536_S_d0_1_2 h_S_) main_v6 main_c_1
  let main_v8 : IVec S_ 1 := andi main_v3 main_v7
  let main_v9 : FVec F S2x64x65536 .f32 := Host.absf main_arg2
  let main_cst_2 : FVec F S_ .f32 := constant S_ .f32 0x7F800000#32
  let main_v10 : FVec F S2x64x65536 .f32 := broadcastInDim S2x64x65536 ![] bcast_S_S2x64x65536 main_cst_2
  let main_v11 : IVec S2x64x65536 1 := cmpf .olt main_v9 main_v10
  let main_c_3 : IVec S_ 1 := constantI S_ 1 1#1
  let main_v12 : IVec S_ 1 := (fun x v => Host.reduce IntOp.andi x v reducesTo_S2x64x65536_S_d0_1_2 h_S_) main_v11 main_c_3
  let main_v13 : IVec S_ 1 := andi main_v8 main_v12
  main_v13
-- ==== Kernel.lean ====
abbrev S2x128x134 : Shape := ⟨3, ![2, 128, 134]⟩
abbrev S2x128x65536 : Shape := ⟨3, ![2, 128, 65536]⟩
abbrev S2x64x65536 : Shape := ⟨3, ![2, 64, 65536]⟩
abbrev S2x64 : Shape := ⟨2, ![2, 64]⟩
abbrev S2 : Shape := ⟨1, ![2]⟩
abbrev S2x128x64 : Shape := ⟨3, ![2, 128, 64]⟩
abbrev S1x128x8192 : Shape := ⟨3, ![1, 128, 8192]⟩
abbrev S1x64x8192 : Shape := ⟨3, ![1, 64, 8192]⟩
abbrev S1x128x64 : Shape := ⟨3, ![1, 128, 64]⟩
abbrev S128x64 : Shape := ⟨2, ![128, 64]⟩
abbrev S128x1 : Shape := ⟨2, ![128, 1]⟩
abbrev S64x1 : Shape := ⟨2, ![64, 1]⟩
abbrev S128x8192 : Shape := ⟨2, ![128, 8192]⟩
abbrev S64x8192 : Shape := ⟨2, ![64, 8192]⟩
abbrev S128 : Shape := ⟨1, ![128]⟩
abbrev S64 : Shape := ⟨1, ![64]⟩
abbrev S1x64 : Shape := ⟨2, ![1, 64]⟩
abbrev S2x1x64 : Shape := ⟨3, ![2, 1, 64]⟩
abbrev S_ : Shape := ⟨0, ![]⟩
abbrev S2x128x64x1 : Shape := ⟨4, ![2, 128, 64, 1]⟩
abbrev S1 : Shape := ⟨1, ![1]⟩
abbrev S1x1x1x1 : Shape := ⟨4, ![1, 1, 1, 1]⟩

abbrev nBuf : Space → Nat
  | .hbm => 31
  | .vmem => 9
  | .smem => 0
  | _ => 0

abbrev bufTy : (tb : Table) → Fin (tcTables nBuf tb) → BufTy
  | .hbm, ⟨0, _⟩ => ⟨S2x128x134, .f32⟩
  | .hbm, ⟨1, _⟩ => ⟨S2x128x65536, .f32⟩
  | .hbm, ⟨2, _⟩ => ⟨S2x64x65536, .f32⟩
  | .hbm, ⟨3, _⟩ => ⟨S2x64, .i32⟩
  | .hbm, ⟨4, _⟩ => ⟨S2, .i32⟩
  | .hbm, ⟨5, _⟩ => ⟨S2x128x64, .f32⟩
  | .hbm, ⟨6, _⟩ => ⟨S2x1x64, .i32⟩
  | .hbm, ⟨7, _⟩ => ⟨S2x128x64, .i32⟩
  | .hbm, ⟨8, _⟩ => ⟨S_, .i32⟩
  | .hbm, ⟨9, _⟩ => ⟨S2x128x64, .i32⟩
  | .hbm, ⟨10, _⟩ => ⟨S2x128x64, .i1⟩
  | .hbm, ⟨11, _⟩ => ⟨S_, .i32⟩
  | .hbm, ⟨12, _⟩ => ⟨S2x128x64, .i32⟩
  | .hbm, ⟨13, _⟩ => ⟨S2x128x64, .i32⟩
  | .hbm, ⟨14, _⟩ => ⟨S2x128x64, .i32⟩
  | .hbm, ⟨15, _⟩ => ⟨S2x128x64x1, .i32⟩
  | .hbm, ⟨16, _⟩ => ⟨S1, .i32⟩
  | .hbm, ⟨17, _⟩ => ⟨S_, .i32⟩
  | .hbm, ⟨18, _⟩ => ⟨S2x128x64x1, .i32⟩
  | .hbm, ⟨19, _⟩ => ⟨S2x128x64x1, .i1⟩
  | .hbm, ⟨20, _⟩ => ⟨S1x1x1x1, .i32⟩
  | .hbm, ⟨21, _⟩ => ⟨S2x128x64x1, .i32⟩
  | .hbm, ⟨22, _⟩ => ⟨S2x128x64x1, .i1⟩
  | .hbm, ⟨23, _⟩ => ⟨S2x128x64x1, .i1⟩
  | .hbm, ⟨24, _⟩ => ⟨S_, .i1⟩
  | .hbm, ⟨25, _⟩ => ⟨S2x128x64, .i1⟩
  | .hbm, ⟨26, _⟩ => ⟨S2x128x64, .f32⟩
  | .hbm, ⟨27, _⟩ => ⟨S_, .f32⟩
  | .hbm, ⟨28, _⟩ => ⟨S2x128x64, .f32⟩
  | .hbm, ⟨29, _⟩ => ⟨S2x128x64, .f32⟩
  | .hbm, ⟨30, _⟩ => ⟨S2x128x64, .f32⟩
  | .local _ .vmem, ⟨0, _⟩ => ⟨S1x128x8192, .f32⟩
  | .local _ .vmem, ⟨1, _⟩ => ⟨S1x128x8192, .f32⟩
  | .local _ .vmem, ⟨2, _⟩ => ⟨S1x64x8192, .f32⟩
  | .local _ .vmem, ⟨3, _⟩ => ⟨S1x64x8192, .f32⟩
  | .local _ .vmem, ⟨4, _⟩ => ⟨S1x128x64, .f32⟩
  | .local _ .vmem, ⟨5, _⟩ => ⟨S1x128x64, .f32⟩
  | .local _ .vmem, ⟨6, _⟩ => ⟨S128x64, .f32⟩
  | .local _ .vmem, ⟨7, _⟩ => ⟨S128x1, .f32⟩
  | .local _ .vmem, ⟨8, _⟩ => ⟨S64x1, .f32⟩
  | _, _ => ⟨S2x128x134, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_call0_c : Ref sig .tc := ⟨.hbm, 8, rfl⟩
abbrev main_call0_v0 : Ref sig .tc := ⟨.hbm, 9, rfl⟩
abbrev main_call0_v1 : Ref sig .tc := ⟨.hbm, 10, rfl⟩
abbrev main_call0_c_0 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_c_1 : Ref sig .tc := ⟨.hbm, 16, rfl⟩
abbrev main_call0_c_2 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_3 : Ref sig .tc := ⟨.hbm, 24, rfl⟩
abbrev main_call0_v12 : Ref sig .tc := ⟨.hbm, 25, rfl⟩
abbrev main_call0_v13 : Ref sig .tc := ⟨.hbm, 26, rfl⟩
abbrev main_call0_cst : Ref sig .tc := ⟨.hbm, 27, rfl⟩
abbrev main_call0_v14 : Ref sig .tc := ⟨.hbm, 28, rfl⟩
abbrev main_v3 : Ref sig .tc := ⟨.hbm, 29, rfl⟩
abbrev main_v4 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def k0_cond2 (i : grid0.Coords) : BitVec 1 :=
  let arg1 : BitVec 32 := BitVec.ofNat 32 (i 1).val
  let c7_i32 : BitVec 32 := 7#32
  let v29 : BitVec 1 := Scalar.cmpi .eq arg1 c7_i32
  let v30 : BitVec 32 := Scalar.extui v29
  let c0_i32_20 : BitVec 32 := 0#32
  let v31 : BitVec 1 := Scalar.cmpi .ne v30 c0_i32_20
  v31

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x128x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S128x1_S128x1_0_0 : ∀ a, (![0, 0] : Fin 2 → Nat) a + S128x1.size a ≤ S128x1.size a
  h_S128x1 : 0 < S128x1.numel
  shapeCasts_S128x1_S128x1 : S128x1.ShapeCasts S128x1
  inb_S64x1_S64x1_0_0 : ∀ a, (![0, 0] : Fin 2 → Nat) a + S64x1.size a ≤ S64x1.size a
  h_S64x1 : 0 < S64x1.numel
  shapeCasts_S64x1_S64x1 : S64x1.ShapeCasts S64x1
  inb_S1x128x8192_S1x128x8192_0_0_0 : ∀ a, (![0, 0, 0] : Fin 3 → Nat) a + S1x128x8192.size a ≤ S1x128x8192.size a
  h_S1x128x8192 : 0 < S1x128x8192.numel
  shapeCasts_S1x128x8192_S128x8192 : S1x128x8192.ShapeCasts S128x8192
  inb_S1x64x8192_S1x64x8192_0_0_0 : ∀ a, (![0, 0, 0] : Fin 3 → Nat) a + S1x64x8192.size a ≤ S1x64x8192.size a
  h_S1x64x8192 : 0 < S1x64x8192.numel
  shapeCasts_S1x64x8192_S64x8192 : S1x64x8192.ShapeCasts S64x8192
  bitsLt_bf16_f32 : FTy.bits .bf16 < FTy.bits .f32
  reduces_S128x8192_S128 : S128x8192.Reduces [1] S128
  shapeCasts_S128_S128x1 : S128.ShapeCasts S128x1
  reduces_S64x8192_S64 : S64x8192.Reduces [1] S64
  shapeCasts_S64_S64x1 : S64.ShapeCasts S64x1
  transposes_S64x1_p1_0_S1x64 : S64x1.Transposes [1, 0] S1x64
  broadcasts_S128x1_S128x64 : S128x1.Broadcasts S128x64
  broadcasts_S1x64_S128x64 : S1x64.Broadcasts S128x64
  inb_S1x128x64_S1x128x64_0_0_0 : ∀ a, (![0, 0, 0] : Fin 3 → Nat) a + S1x128x64.size a ≤ S1x128x64.size a
  h_S1x128x64 : 0 < S1x128x64.numel
  shapeCasts_S1x128x64_S128x64 : S1x128x64.ShapeCasts S128x64
  shapeCasts_S128x64_S1x128x64 : S128x64.ShapeCasts S1x128x64
  bcast_S2x64_S2x1x64_0_2 : S2x64.BroadcastsInDim S2x1x64 (![0, 2] : Fin 2 → Fin S2x1x64.rank)
  bcast_S2x1x64_S2x128x64_0_1_2 : S2x1x64.BroadcastsInDim S2x128x64 (![0, 1, 2] : Fin 3 → Fin S2x128x64.rank)
  bcast_S_S2x128x64 : S_.BroadcastsInDim S2x128x64 (![] : Fin 0 → Fin S2x128x64.rank)
  shapeCasts_S2x128x64_S2x128x64x1 : S2x128x64.ShapeCasts S2x128x64x1
  bcast_S_S2x128x64x1 : S_.BroadcastsInDim S2x128x64x1 (![] : Fin 0 → Fin S2x128x64x1.rank)
  bcast_S1_S1x1x1x1_3 : S1.BroadcastsInDim S1x1x1x1 (![3] : Fin 1 → Fin S1x1x1x1.rank)
  bcast_S1x1x1x1_S2x128x64x1_0_1_2_3 : S1x1x1x1.BroadcastsInDim S2x128x64x1 (![0, 1, 2, 3] : Fin 4 → Fin S2x128x64x1.rank)
  reducesTo_S2x128x64x1_S2x128x64_d3 : S2x128x64x1.ReducesTo [3] S2x128x64
  h_S_ : 0 < S_.numel
  dot_S128x8192_S64x8192_S128x64_1_1_0_0_n_n_wf : DotDims.WF S128x8192 S64x8192 S128x64 [1] [1] [0] [0] [] []
  gather_S2x128x134_S2x128x64x1_S2x128x64_n_2_01_01_2_3_111_wf : GatherDims.WF S2x128x134 S2x128x64x1 S2x128x64 [] [2] [0, 1] [2] [0, 1] 3 ![1, 1, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x8192.size a ≤ S2x128x65536.size a
  hwx0_0 : ∀ i : grid0.Coords, EltTy.bits .f32 = 32 ∨ (Rect.block (s := S2x128x65536) S1x128x8192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64x8192.size a ≤ S2x64x65536.size a
  hwx0_1 : ∀ i : grid0.Coords, EltTy.bits .f32 = 32 ∨ (Rect.block (s := S2x64x65536) S1x64x8192.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x128x64.size a ≤ S2x128x64.size a
  hwx0_2 : ∀ i : grid0.Coords, EltTy.bits .f32 = 32 ∨ (Rect.block (s := S2x128x64) S1x128x64.size (cc0_transform_2 i) (hinb0_2 i)).WholeWords (EltTy.packing .f32)

variable [Facts₀]

def dot_S128x8192_S64x8192_S128x64_1_1_0_0_n_n : DotDims S128x8192 S64x8192 S128x64 where
  lhsContracting := [1]
  rhsContracting := [1]
  lhsNonContracting := [0]
  rhsNonContracting := [0]
  lhsBatch := []
  rhsBatch := []
  wf := dot_S128x8192_S64x8192_S128x64_1_1_0_0_n_n_wf
def gather_S2x128x134_S2x128x64x1_S2x128x64_n_2_01_01_2_3_111 : GatherDims S2x128x134 S2x128x64x1 S2x128x64 where
  offsetDims := []
  collapsedSliceDims := [2]
  operandBatchingDims := [0, 1]
  startIndicesBatchingDims := [0, 1]
  startIndexMap := [2]
  indexVectorDim := 3
  sliceSizes := ![1, 1, 1]
  wf := gather_S2x128x134_S2x128x64x1_S2x128x64_n_2_01_01_2_3_111_wf

abbrev win0_0 : Pipeline.Window sig grid0 :=
  Pipeline.Window.ofSpec (Memref.whole main_arg1) S1x128x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1x64x8192.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x128x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S2x128x134 : Shape := ⟨3, ![2, 128, 134]⟩
abbrev S2x128x65536 : Shape := ⟨3, ![2, 128, 65536]⟩
abbrev S2x64x65536 : Shape := ⟨3, ![2, 64, 65536]⟩
abbrev S2x64 : Shape := ⟨2, ![2, 64]⟩
abbrev S2 : Shape := ⟨1, ![2]⟩
abbrev S2x1x64 : Shape := ⟨3, ![2, 1, 64]⟩
abbrev S2x128x64 : Shape := ⟨3, ![2, 128, 64]⟩
abbrev S_ : Shape := ⟨0, ![]⟩
abbrev S2x128x64x1 : Shape := ⟨4, ![2, 128, 64, 1]⟩
abbrev S1 : Shape := ⟨1, ![1]⟩
abbrev S1x1x1x1 : Shape := ⟨4, ![1, 1, 1, 1]⟩
abbrev S2x128 : Shape := ⟨2, ![2, 128]⟩
abbrev S2x128x1 : Shape := ⟨3, ![2, 128, 1]⟩

abbrev nBuf : Space → Nat
  | .hbm => 50
  | .vmem => 0
  | .smem => 0
  | _ => 0

abbrev bufTy : (tb : Table) → Fin (tcTables nBuf tb) → BufTy
  | .hbm, ⟨0, _⟩ => ⟨S2x128x134, .f32⟩
  | .hbm, ⟨1, _⟩ => ⟨S2x128x65536, .f32⟩
  | .hbm, ⟨2, _⟩ => ⟨S2x64x65536, .f32⟩
  | .hbm, ⟨3, _⟩ => ⟨S2x64, .i32⟩
  | .hbm, ⟨4, _⟩ => ⟨S2, .i32⟩
  | .hbm, ⟨5, _⟩ => ⟨S2x1x64, .i32⟩
  | .hbm, ⟨6, _⟩ => ⟨S2x128x64, .i32⟩
  | .hbm, ⟨7, _⟩ => ⟨S_, .i32⟩
  | .hbm, ⟨8, _⟩ => ⟨S2x128x64, .i32⟩
  | .hbm, ⟨9, _⟩ => ⟨S2x128x64, .i1⟩
  | .hbm, ⟨10, _⟩ => ⟨S_, .i32⟩
  | .hbm, ⟨11, _⟩ => ⟨S2x128x64, .i32⟩
  | .hbm, ⟨12, _⟩ => ⟨S2x128x64, .i32⟩
  | .hbm, ⟨13, _⟩ => ⟨S2x128x64, .i32⟩
  | .hbm, ⟨14, _⟩ => ⟨S2x128x64x1, .i32⟩
  | .hbm, ⟨15, _⟩ => ⟨S1, .i32⟩
  | .hbm, ⟨16, _⟩ => ⟨S_, .i32⟩
  | .hbm, ⟨17, _⟩ => ⟨S2x128x64x1, .i32⟩
  | .hbm, ⟨18, _⟩ => ⟨S2x128x64x1, .i1⟩
  | .hbm, ⟨19, _⟩ => ⟨S1x1x1x1, .i32⟩
  | .hbm, ⟨20, _⟩ => ⟨S2x128x64x1, .i32⟩
  | .hbm, ⟨21, _⟩ => ⟨S2x128x64x1, .i1⟩
  | .hbm, ⟨22, _⟩ => ⟨S2x128x64x1, .i1⟩
  | .hbm, ⟨23, _⟩ => ⟨S_, .i1⟩
  | .hbm, ⟨24, _⟩ => ⟨S2x128x64, .i1⟩
  | .hbm, ⟨25, _⟩ => ⟨S2x128x64, .f32⟩
  | .hbm, ⟨26, _⟩ => ⟨S_, .f32⟩
  | .hbm, ⟨27, _⟩ => ⟨S2x128x64, .f32⟩
  | .hbm, ⟨28, _⟩ => ⟨S2x128x64, .f32⟩
  | .hbm, ⟨29, _⟩ => ⟨S2x128x64, .f32⟩
  | .hbm, ⟨30, _⟩ => ⟨S_, .f32⟩
  | .hbm, ⟨31, _⟩ => ⟨S2x128, .f32⟩
  | .hbm, ⟨32, _⟩ => ⟨S2x128x1, .f32⟩
  | .hbm, ⟨33, _⟩ => ⟨S_, .f32⟩
  | .hbm, ⟨34, _⟩ => ⟨S2x64, .f32⟩
  | .hbm, ⟨35, _⟩ => ⟨S2x1x64, .f32⟩
  | .hbm, ⟨36, _⟩ => ⟨S2x128x64, .f32⟩
  | .hbm, ⟨37, _⟩ => ⟨S2x128x64, .f32⟩
  | .hbm, ⟨38, _⟩ => ⟨S2x128x64, .f32⟩
  | .hbm, ⟨39, _⟩ => ⟨S_, .f32⟩
  | .hbm, ⟨40, _⟩ => ⟨S2x128x64, .f32⟩
  | .hbm, ⟨41, _⟩ => ⟨S2x128x64, .f32⟩
  | .hbm, ⟨42, _⟩ => ⟨S_, .f32⟩
  | .hbm, ⟨43, _⟩ => ⟨S2x128x64, .f32⟩
  | .hbm, ⟨44, _⟩ => ⟨S2x128x64, .f32⟩
  | .hbm, ⟨45, _⟩ => ⟨S_, .f32⟩
  | .hbm, ⟨46, _⟩ => ⟨S2x128x64, .f32⟩
  | .hbm, ⟨47, _⟩ => ⟨S2x128x64, .f32⟩
  | .hbm, ⟨48, _⟩ => ⟨S2x128x64, .f32⟩
  | .hbm, ⟨49, _⟩ => ⟨S2x128x64, .f32⟩
  | _, _ => ⟨S2x128x134, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_call0_c : Ref sig .tc := ⟨.hbm, 7, rfl⟩
abbrev main_call0_v0 : Ref sig .tc := ⟨.hbm, 8, rfl⟩
abbrev main_call0_v1 : Ref sig .tc := ⟨.hbm, 9, rfl⟩
abbrev main_call0_c_0 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_c_1 : Ref sig .tc := ⟨.hbm, 15, rfl⟩
abbrev main_call0_c_2 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_3 : Ref sig .tc := ⟨.hbm, 23, rfl⟩
abbrev main_call0_v12 : Ref sig .tc := ⟨.hbm, 24, rfl⟩
abbrev main_call0_v13 : Ref sig .tc := ⟨.hbm, 25, rfl⟩
abbrev main_call0_cst : Ref sig .tc := ⟨.hbm, 26, rfl⟩
abbrev main_call0_v14 : Ref sig .tc := ⟨.hbm, 27, rfl⟩
abbrev main_v2 : Ref sig .tc := ⟨.hbm, 28, rfl⟩
abbrev main_v3 : Ref sig .tc := ⟨.hbm, 29, rfl⟩
abbrev main_cst : Ref sig .tc := ⟨.hbm, 30, rfl⟩
abbrev main_v4 : Ref sig .tc := ⟨.hbm, 31, rfl⟩
abbrev main_v5 : Ref sig .tc := ⟨.hbm, 32, rfl⟩
abbrev main_cst_0 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_cst_1 : Ref sig .tc := ⟨.hbm, 39, rfl⟩
abbrev main_v11 : Ref sig .tc := ⟨.hbm, 40, rfl⟩
abbrev main_v12 : Ref sig .tc := ⟨.hbm, 41, rfl⟩
abbrev main_cst_2 : Ref sig .tc := ⟨.hbm, 42, rfl⟩
abbrev main_v13 : Ref sig .tc := ⟨.hbm, 43, rfl⟩
abbrev main_v14 : Ref sig .tc := ⟨.hbm, 44, rfl⟩
abbrev main_cst_3 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩

abbrev nD : Nat := 1
abbrev τ : Topo := Topo.v7x

variable {F : FTy → Type} [FloatOps F]

class Facts₀ : Prop where
  bcast_S2x64_S2x1x64_0_2 : S2x64.BroadcastsInDim S2x1x64 (![0, 2] : Fin 2 → Fin S2x1x64.rank)
  bcast_S2x1x64_S2x128x64_0_1_2 : S2x1x64.BroadcastsInDim S2x128x64 (![0, 1, 2] : Fin 3 → Fin S2x128x64.rank)
  bcast_S_S2x128x64 : S_.BroadcastsInDim S2x128x64 (![] : Fin 0 → Fin S2x128x64.rank)
  shapeCasts_S2x128x64_S2x128x64x1 : S2x128x64.ShapeCasts S2x128x64x1
  bcast_S_S2x128x64x1 : S_.BroadcastsInDim S2x128x64x1 (![] : Fin 0 → Fin S2x128x64x1.rank)
  bcast_S1_S1x1x1x1_3 : S1.BroadcastsInDim S1x1x1x1 (![3] : Fin 1 → Fin S1x1x1x1.rank)
  bcast_S1x1x1x1_S2x128x64x1_0_1_2_3 : S1x1x1x1.BroadcastsInDim S2x128x64x1 (![0, 1, 2, 3] : Fin 4 → Fin S2x128x64x1.rank)
  reducesTo_S2x128x64x1_S2x128x64_d3 : S2x128x64x1.ReducesTo [3] S2x128x64
  h_S_ : 0 < S_.numel
  reducesTo_S2x128x65536_S2x128_d2 : S2x128x65536.ReducesTo [2] S2x128
  bcast_S2x128_S2x128x1_0_1 : S2x128.BroadcastsInDim S2x128x1 (![0, 1] : Fin 2 → Fin S2x128x1.rank)
  reducesTo_S2x64x65536_S2x64_d2 : S2x64x65536.ReducesTo [2] S2x64
  bcast_S2x128x1_S2x128x64_0_1_2 : S2x128x1.BroadcastsInDim S2x128x64 (![0, 1, 2] : Fin 3 → Fin S2x128x64.rank)
  gather_S2x128x134_S2x128x64x1_S2x128x64_n_2_01_01_2_3_111_wf : GatherDims.WF S2x128x134 S2x128x64x1 S2x128x64 [] [2] [0, 1] [2] [0, 1] 3 ![1, 1, 1]
  dot_S2x128x65536_S2x64x65536_S2x128x64_2_2_1_1_0_0_wf : DotDims.WF S2x128x65536 S2x64x65536 S2x128x64 [2] [2] [1] [1] [0] [0]

variable [Facts₀]

def gather_S2x128x134_S2x128x64x1_S2x128x64_n_2_01_01_2_3_111 : GatherDims S2x128x134 S2x128x64x1 S2x128x64 where
  offsetDims := []
  collapsedSliceDims := [2]
  operandBatchingDims := [0, 1]
  startIndicesBatchingDims := [0, 1]
  startIndexMap := [2]
  indexVectorDim := 3
  sliceSizes := ![1, 1, 1]
  wf := gather_S2x128x134_S2x128x64x1_S2x128x64_n_2_01_01_2_3_111_wf
def dot_S2x128x65536_S2x64x65536_S2x128x64_2_2_1_1_0_0 : DotDims S2x128x65536 S2x64x65536 S2x128x64 where
  lhsContracting := [2]
  rhsContracting := [2]
  lhsNonContracting := [1]
  rhsNonContracting := [1]
  lhsBatch := [0]
  rhsBatch := [0]
  wf := dot_S2x128x65536_S2x64x65536_S2x128x64_2_2_1_1_0_0_wf

class Facts : Prop extends Facts₀ where

variable [Facts]
-- ==== Proof.Pieces.lean ====
/-
  What one run of the kernel body leaves in its three carried scratch buffers and in its output block, as values.

  The body keeps three accumulators across the grid points of one batch: the intersections (128 × 64), the row sums of
  the predicted masks (128 × 1) and the row sums of the target masks (64 × 1).  At a batch's first point it stores zero
  into each and then adds the point's contribution; at every later point it adds the point's contribution to what the
  point before left; at a batch's last point it also stores the output block, computed from the three accumulators it
  has just updated.  Each buffer is loaded and stored whole, so what a run leaves in a buffer is the payload of the last
  store into it, with every load read as the buffer's contents at that moment: the three contributions
  `k0_pay7`, `k0_pay8`, `k0_pay9` of the input blocks and the previous accumulators, and the quotient `k0_pay1` of the
  updated accumulators.  These equations hold for any reading of the float operations.
-/
import proofs.«175453_j41961830481930_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-! ## A batch's first point: zero, then the point's contribution -/

theorem first_inter (c : Dev nD) (i : grid0.Coords) (arg2 : Memref sig .tc .vmem S1x128x8192 .f32) (harg2 : arg2.IsWhole) (arg3 : Memref sig .tc .vmem S1x64x8192 .f32) (harg3 : arg3.IsWhole) (arg4 : Memref sig .tc .vmem S1x128x64 .f32) (harg4 : arg4.IsWhole) (arg5 : Memref sig .tc .vmem S128x64 .f32) (harg5 : arg5.IsWhole) (arg6 : Memref sig .tc .vmem S128x1 .f32) (harg6 : arg6.IsWhole) (arg7 : Memref sig .tc .vmem S64x1 .f32) (harg7 : arg7.IsWhole) (hc0 : cond0_0 i) (hc1 : ¬cond0_1 i)
    (x0 : Vec F S1x128x8192 .f32) (x1 : Vec F S1x64x8192 .f32) :
    sout0_A_0 c i arg2 harg2 arg3 harg3 arg4 harg4 arg5 harg5 arg6 harg6 arg7 harg7 hc0 hc1 x0 x1 = k0_pay7 x0 x1 k0_pay2 := by
  unfold sout0_A_0
  rw [View.read_writes_eq_canon _ _ _ (scover0_A_0 c i arg2 harg2 arg3 harg3 arg4 harg4 arg5 harg5 arg6 harg6 arg7 harg7 hc0 hc1 x0 x1)]
  unfold kernelRun0_A
  dsimp only
  sl_unfold_words
  rw [View.canon_cons_unit_zero (S := S128x64) hz2]
  simp only [View.readAt_eq_ld, harg2.read_unread, harg3.read_unread, View.ld_unit_zero (S := S1x128x8192) hz3,
    View.ld_unit_zero (S := S1x64x8192) hz3, View.readCov_unit_zero (S := S128x64) _ hz2]

theorem first_rows (c : Dev nD) (i : grid0.Coords) (arg2 : Memref sig .tc .vmem S1x128x8192 .f32) (harg2 : arg2.IsWhole) (arg3 : Memref sig .tc .vmem S1x64x8192 .f32) (harg3 : arg3.IsWhole) (arg4 : Memref sig .tc .vmem S1x128x64 .f32) (harg4 : arg4.IsWhole) (arg5 : Memref sig .tc .vmem S128x64 .f32) (harg5 : arg5.IsWhole) (arg6 : Memref sig .tc .vmem S128x1 .f32) (harg6 : arg6.IsWhole) (arg7 : Memref sig .tc .vmem S64x1 .f32) (harg7 : arg7.IsWhole) (hc0 : cond0_0 i) (hc1 : ¬cond0_1 i)
    (x0 : Vec F S1x128x8192 .f32) (x1 : Vec F S1x64x8192 .f32) :
    sout0_A_1 c i arg2 harg2 arg3 harg3 arg4 harg4 arg5 harg5 arg6 harg6 arg7 harg7 hc0 hc1 x0 x1 = k0_pay8 x0 k0_pay3 := by
  unfold sout0_A_1
  rw [View.read_writes_eq_canon _ _ _ (scover0_A_1 c i arg2 harg2 arg3 harg3 arg4 harg4 arg5 harg5 arg6 harg6 arg7 harg7 hc0 hc1 x0 x1)]
  unfold kernelRun0_A
  dsimp only
  sl_unfold_words
  rw [View.canon_cons_unit_zero (S := S128x1) hz2]
  simp only [View.readAt_eq_ld, harg2.read_unread, View.ld_unit_zero (S := S1x128x8192) hz3,
    View.readCov_unit_zero (S := S128x1) _ hz2]

theorem first_cols (c : Dev nD) (i : grid0.Coords) (arg2 : Memref sig .tc .vmem S1x128x8192 .f32) (harg2 : arg2.IsWhole) (arg3 : Memref sig .tc .vmem S1x64x8192 .f32) (harg3 : arg3.IsWhole) (arg4 : Memref sig .tc .vmem S1x128x64 .f32) (harg4 : arg4.IsWhole) (arg5 : Memref sig .tc .vmem S128x64 .f32) (harg5 : arg5.IsWhole) (arg6 : Memref sig .tc .vmem S128x1 .f32) (harg6 : arg6.IsWhole) (arg7 : Memref sig .tc .vmem S64x1 .f32) (harg7 : arg7.IsWhole) (hc0 : cond0_0 i) (hc1 : ¬cond0_1 i)
    (x0 : Vec F S1x128x8192 .f32) (x1 : Vec F S1x64x8192 .f32) :
    sout0_A_2 c i arg2 harg2 arg3 harg3 arg4 harg4 arg5 harg5 arg6 harg6 arg7 harg7 hc0 hc1 x0 x1 = k0_pay9 x1 k0_pay4 := by
  unfold sout0_A_2
  rw [View.read_writes_eq_canon _ _ _ (scover0_A_2 c i arg2 harg2 arg3 harg3 arg4 harg4 arg5 harg5 arg6 harg6 arg7 harg7 hc0 hc1 x0 x1)]
  unfold kernelRun0_A
  dsimp only
  sl_unfold_words
  rw [View.canon_cons_unit_zero (S := S64x1) hz2]
  simp only [View.readAt_eq_ld, harg3.read_unread, View.ld_unit_zero (S := S1x64x8192) hz3,
    View.readCov_unit_zero (S := S64x1) _ hz2]

/-! ## A middle point: the contribution added to what the point before left -/

theorem mid_inter (c : Dev nD) (i : grid0.Coords) (arg2 : Memref sig .tc .vmem S1x128x8192 .f32) (harg2 : arg2.IsWhole) (arg3 : Memref sig .tc .vmem S1x64x8192 .f32) (harg3 : arg3.IsWhole) (arg4 : Memref sig .tc .vmem S1x128x64 .f32) (harg4 : arg4.IsWhole) (arg5 : Memref sig .tc .vmem S128x64 .f32) (harg5 : arg5.IsWhole) (arg6 : Memref sig .tc .vmem S128x1 .f32) (harg6 : arg6.IsWhole) (arg7 : Memref sig .tc .vmem S64x1 .f32) (harg7 : arg7.IsWhole) (hc0 : ¬cond0_0 i) (hc1 : ¬cond0_1 i)
    (x0 : Vec F S1x128x8192 .f32) (x1 : Vec F S1x64x8192 .f32) (xs0 : Vec F S128x64 .f32) (xs1 : Vec F S128x1 .f32) (xs2 : Vec F S64x1 .f32) :
    sout0_B_0 c i arg2 harg2 arg3 harg3 arg4 harg4 arg5 harg5 arg6 harg6 arg7 harg7 hc0 hc1 x0 x1 xs0 xs1 xs2 = k0_pay7 x0 x1 xs0 := by
  unfold sout0_B_0
  rw [View.read_writes_eq_canon _ _ _ (scover0_B_0 c i arg2 harg2 arg3 harg3 arg4 harg4 arg5 harg5 arg6 harg6 arg7 harg7 hc0 hc1 x0 x1 xs0 xs1 xs2)]
  unfold kernelRun0_B
  dsimp only
  sl_unfold_words
  rw [View.canon_unit_zero (S := S128x64) hz2]
  simp only [View.readAt_eq_ld, harg2.read_unread, harg3.read_unread, harg5.read_unread,
    View.ld_unit_zero (S := S1x128x8192) hz3, View.ld_unit_zero (S := S1x64x8192) hz3, View.ld_unit_zero (S := S128x64) hz2]

theorem mid_rows (c : Dev nD) (i : grid0.Coords) (arg2 : Memref sig .tc .vmem S1x128x8192 .f32) (harg2 : arg2.IsWhole) (arg3 : Memref sig .tc .vmem S1x64x8192 .f32) (harg3 : arg3.IsWhole) (arg4 : Memref sig .tc .vmem S1x128x64 .f32) (harg4 : arg4.IsWhole) (arg5 : Memref sig .tc .vmem S128x64 .f32) (harg5 : arg5.IsWhole) (arg6 : Memref sig .tc .vmem S128x1 .f32) (harg6 : arg6.IsWhole) (arg7 : Memref sig .tc .vmem S64x1 .f32) (harg7 : arg7.IsWhole) (hc0 : ¬cond0_0 i) (hc1 : ¬cond0_1 i)
    (x0 : Vec F S1x128x8192 .f32) (x1 : Vec F S1x64x8192 .f32) (xs0 : Vec F S128x64 .f32) (xs1 : Vec F S128x1 .f32) (xs2 : Vec F S64x1 .f32) :
    sout0_B_1 c i arg2 harg2 arg3 harg3 arg4 harg4 arg5 harg5 arg6 harg6 arg7 harg7 hc0 hc1 x0 x1 xs0 xs1 xs2 = k0_pay8 x0 xs1 := by
  unfold sout0_B_1
  rw [View.read_writes_eq_canon _ _ _ (scover0_B_1 c i arg2 harg2 arg3 harg3 arg4 harg4 arg5 harg5 arg6 harg6 arg7 harg7 hc0 hc1 x0 x1 xs0 xs1 xs2)]
  unfold kernelRun0_B
  dsimp only
  sl_unfold_words
  rw [View.canon_unit_zero (S := S128x1) hz2]
  simp only [View.readAt_eq_ld, harg2.read_unread, harg6.read_unread,
    View.ld_unit_zero (S := S1x128x8192) hz3, View.ld_unit_zero (S := S128x1) hz2]

theorem mid_cols (c : Dev nD) (i : grid0.Coords) (arg2 : Memref sig .tc .vmem S1x128x8192 .f32) (harg2 : arg2.IsWhole) (arg3 : Memref sig .tc .vmem S1x64x8192 .f32) (harg3 : arg3.IsWhole) (arg4 : Memref sig .tc .vmem S1x128x64 .f32) (harg4 : arg4.IsWhole) (arg5 : Memref sig .tc .vmem S128x64 .f32) (harg5 : arg5.IsWhole) (arg6 : Memref sig .tc .vmem S128x1 .f32) (harg6 : arg6.IsWhole) (arg7 : Memref sig .tc .vmem S64x1 .f32) (harg7 : arg7.IsWhole) (hc0 : ¬cond0_0 i) (hc1 : ¬cond0_1 i)
    (x0 : Vec F S1x128x8192 .f32) (x1 : Vec F S1x64x8192 .f32) (xs0 : Vec F S128x64 .f32) (xs1 : Vec F S128x1 .f32) (xs2 : Vec F S64x1 .f32) :
    sout0_B_2 c i arg2 harg2 arg3 harg3 arg4 harg4 arg5 harg5 arg6 harg6 arg7 harg7 hc0 hc1 x0 x1 xs0 xs1 xs2 = k0_pay9 x1 xs2 := by
  unfold sout0_B_2
  rw [View.read_writes_eq_canon _ _ _ (scover0_B_2 c i arg2 harg2 arg3 harg3 arg4 harg4 arg5 harg5 arg6 harg6 arg7 harg7 hc0 hc1 x0 x1 xs0 xs1 xs2)]
  unfold kernelRun0_B
  dsimp only
  sl_unfold_words
  rw [View.canon_unit_zero (S := S64x1) hz2]
  simp only [View.readAt_eq_ld, harg3.read_unread, harg7.read_unread,
    View.ld_unit_zero (S := S1x64x8192) hz3, View.ld_unit_zero (S := S64x1) hz2]

/-! ## A batch's last point: the same three updates, and the output block from the updated accumulators -/

theorem last_inter (c : Dev nD) (i : grid0.Coords) (arg2 : Memref sig .tc .vmem S1x128x8192 .f32) (harg2 : arg2.IsWhole) (arg3 : Memref sig .tc .vmem S1x64x8192 .f32) (harg3 : arg3.IsWhole) (arg4 : Memref sig .tc .vmem S1x128x64 .f32) (harg4 : arg4.IsWhole) (arg5 : Memref sig .tc .vmem S128x64 .f32) (harg5 : arg5.IsWhole) (arg6 : Memref sig .tc .vmem S128x1 .f32) (harg6 : arg6.IsWhole) (arg7 : Memref sig .tc .vmem S64x1 .f32) (harg7 : arg7.IsWhole) (hc0 : ¬cond0_0 i) (hc1 : cond0_1 i)
    (x0 : Vec F S1x128x8192 .f32) (x1 : Vec F S1x64x8192 .f32) (xs0 : Vec F S128x64 .f32) (xs1 : Vec F S128x1 .f32) (xs2 : Vec F S64x1 .f32) :
    sout0_C_0 c i arg2 harg2 arg3 harg3 arg4 harg4 arg5 harg5 arg6 harg6 arg7 harg7 hc0 hc1 x0 x1 xs0 xs1 xs2 = k0_pay7 x0 x1 xs0 := by
  unfold sout0_C_0
  rw [View.read_writes_eq_canon _ _ _ (scover0_C_0 c i arg2 harg2 arg3 harg3 arg4 harg4 arg5 harg5 arg6 harg6 arg7 harg7 hc0 hc1 x0 x1 xs0 xs1 xs2)]
  unfold kernelRun0_C
  dsimp only
  sl_unfold_words
  rw [View.canon_unit_zero (S := S128x64) hz2]
  simp only [View.readAt_eq_ld, harg2.read_unread, harg3.read_unread, harg5.read_unread,
    View.ld_unit_zero (S := S1x128x8192) hz3, View.ld_unit_zero (S := S1x64x8192) hz3, View.ld_unit_zero (S := S128x64) hz2]

theorem last_rows (c : Dev nD) (i : grid0.Coords) (arg2 : Memref sig .tc .vmem S1x128x8192 .f32) (harg2 : arg2.IsWhole) (arg3 : Memref sig .tc .vmem S1x64x8192 .f32) (harg3 : arg3.IsWhole) (arg4 : Memref sig .tc .vmem S1x128x64 .f32) (harg4 : arg4.IsWhole) (arg5 : Memref sig .tc .vmem S128x64 .f32) (harg5 : arg5.IsWhole) (arg6 : Memref sig .tc .vmem S128x1 .f32) (harg6 : arg6.IsWhole) (arg7 : Memref sig .tc .vmem S64x1 .f32) (harg7 : arg7.IsWhole) (hc0 : ¬cond0_0 i) (hc1 : cond0_1 i)
    (x0 : Vec F S1x128x8192 .f32) (x1 : Vec F S1x64x8192 .f32) (xs0 : Vec F S128x64 .f32) (xs1 : Vec F S128x1 .f32) (xs2 : Vec F S64x1 .f32) :
    sout0_C_1 c i arg2 harg2 arg3 harg3 arg4 harg4 arg5 harg5 arg6 harg6 arg7 harg7 hc0 hc1 x0 x1 xs0 xs1 xs2 = k0_pay8 x0 xs1 := by
  unfold sout0_C_1
  rw [View.read_writes_eq_canon _ _ _ (scover0_C_1 c i arg2 harg2 arg3 harg3 arg4 harg4 arg5 harg5 arg6 harg6 arg7 harg7 hc0 hc1 x0 x1 xs0 xs1 xs2)]
  unfold kernelRun0_C
  dsimp only
  sl_unfold_words
  rw [View.canon_unit_zero (S := S128x1) hz2]
  simp only [View.readAt_eq_ld, harg2.read_unread, harg6.read_unread,
    View.ld_unit_zero (S := S1x128x8192) hz3, View.ld_unit_zero (S := S128x1) hz2]

theorem last_cols (c : Dev nD) (i : grid0.Coords) (arg2 : Memref sig .tc .vmem S1x128x8192 .f32) (harg2 : arg2.IsWhole) (arg3 : Memref sig .tc .vmem S1x64x8192 .f32) (harg3 : arg3.IsWhole) (arg4 : Memref sig .tc .vmem S1x128x64 .f32) (harg4 : arg4.IsWhole) (arg5 : Memref sig .tc .vmem S128x64 .f32) (harg5 : arg5.IsWhole) (arg6 : Memref sig .tc .vmem S128x1 .f32) (harg6 : arg6.IsWhole) (arg7 : Memref sig .tc .vmem S64x1 .f32) (harg7 : arg7.IsWhole) (hc0 : ¬cond0_0 i) (hc1 : cond0_1 i)
    (x0 : Vec F S1x128x8192 .f32) (x1 : Vec F S1x64x8192 .f32) (xs0 : Vec F S128x64 .f32) (xs1 : Vec F S128x1 .f32) (xs2 : Vec F S64x1 .f32) :
    sout0_C_2 c i arg2 harg2 arg3 harg3 arg4 harg4 arg5 harg5 arg6 harg6 arg7 harg7 hc0 hc1 x0 x1 xs0 xs1 xs2 = k0_pay9 x1 xs2 := by
  unfold sout0_C_2
  rw [View.read_writes_eq_canon _ _ _ (scover0_C_2 c i arg2 harg2 arg3 harg3 arg4 harg4 arg5 harg5 arg6 harg6 arg7 harg7 hc0 hc1 x0 x1 xs0 xs1 xs2)]
  unfold kernelRun0_C
  dsimp only
  sl_unfold_words
  rw [View.canon_unit_zero (S := S64x1) hz2]
  simp only [View.readAt_eq_ld, harg3.read_unread, harg7.read_unread,
    View.ld_unit_zero (S := S1x64x8192) hz3, View.ld_unit_zero (S := S64x1) hz2]

theorem last_out (c : Dev nD) (i : grid0.Coords) (arg2 : Memref sig .tc .vmem S1x128x8192 .f32) (harg2 : arg2.IsWhole) (arg3 : Memref sig .tc .vmem S1x64x8192 .f32) (harg3 : arg3.IsWhole) (arg4 : Memref sig .tc .vmem S1x128x64 .f32) (harg4 : arg4.IsWhole) (arg5 : Memref sig .tc .vmem S128x64 .f32) (harg5 : arg5.IsWhole) (arg6 : Memref sig .tc .vmem S128x1 .f32) (harg6 : arg6.IsWhole) (arg7 : Memref sig .tc .vmem S64x1 .f32) (harg7 : arg7.IsWhole) (hc0 : ¬cond0_0 i) (hc1 : cond0_1 i)
    (x0 : Vec F S1x128x8192 .f32) (x1 : Vec F S1x64x8192 .f32) (xs0 : Vec F S128x64 .f32) (xs1 : Vec F S128x1 .f32) (xs2 : Vec F S64x1 .f32) :
    out0_C_2 c i arg2 harg2 arg3 harg3 arg4 harg4 arg5 harg5 arg6 harg6 arg7 harg7 hc0 hc1 x0 x1 xs0 xs1 xs2
      = k0_pay1 (k0_pay8 x0 xs1) (k0_pay9 x1 xs2) (k0_pay7 x0 x1 xs0) := by
  unfold out0_C_2
  rw [View.read_writes_eq_canon _ _ _ (cover0_C_2 c i arg2 harg2 arg3 harg3 arg4 harg4 arg5 harg5 arg6 harg6 arg7 harg7 hc0 hc1 x0 x1 xs0 xs1 xs2)]
  unfold kernelRun0_C
  dsimp only
  sl_unfold_words
  rw [View.canon_unit_zero (S := S1x128x64) hz3]
  simp only [View.readAt_eq_ld, harg2.read_unread, harg3.read_unread, harg5.read_unread, harg6.read_unread,
    harg7.read_unread, View.ld_unit_zero (S := S1x128x8192) hz3, View.ld_unit_zero (S := S1x64x8192) hz3,
    View.ld_unit_zero (S := S128x64) hz2, View.ld_unit_zero (S := S128x1) hz2, View.ld_unit_zero (S := S64x1) hz2,
    View.readCov_unit_zero (S := S128x64) _ hz2, View.readCov_unit_zero (S := S128x1) _ hz2,
    View.readCov_unit_zero (S := S64x1) _ hz2]

end Cert.KernelIdeal.Pieces
end
-- ==== Proof.LibDotRows.lean ====
/-
  A matrix product that contracts the LAST axis of both operands, read at one entry.

  For `x : M × K` and `y : N × K` the product with dimension numbers "contract axis 1 of the left with axis 1 of the right, keep
  axis 0 of each" is the `M × N` array of inner products of ROWS: entry `(p, q)` is `∑ k, x[p, k] · y[q, k]`. Over the extended
  reals, accumulated into the zero array, that is the whole statement (`matmul_rows_apply`); the work is only to identify the
  product's own operand indices — computed from the dimension numbers — with the coordinate pairs `(p, k)` and `(q, k)`, and its
  one-axis contraction index with the coordinate `k`.
-/
import Idealize.ShloMosaic.PureOps.Ideal.Laws
import Idealize.ShloMosaic.Lib.ValueIdx

noncomputable section

open scoped BigOperators

namespace Cert.Lib.DotRows

open Idealize.ShloMosaic Idealize.ShloMosaic.ValueIdx

variable {M K N : Nat}

/-- The left operand's kept axis 0 follows the output's axis 0, whatever the contraction index. -/
theorem lhs_axis0 (i : (⟨2, ![M, N]⟩ : Shape).Idx) (c : (DotDims.transposedRhs M K N).contr.Idx) :
    ((DotDims.transposedRhs M K N).lhsIdx i c 0).val = (i 0).val := by
  unfold DotDims.lhsIdx
  rw [dif_neg (show ¬(0 : Fin (⟨2, ![M, K]⟩ : Shape).rank) ∈ (DotDims.transposedRhs M K N).lhsBatch from List.not_mem_nil),
    dif_pos (show (0 : Fin (⟨2, ![M, K]⟩ : Shape).rank) ∈ (DotDims.transposedRhs M K N).lhsNonContracting from List.mem_cons_self)]
  rfl

/-- The right operand's kept axis 0 follows the output's axis 1. -/
theorem rhs_axis0 (i : (⟨2, ![M, N]⟩ : Shape).Idx) (c : (DotDims.transposedRhs M K N).contr.Idx) :
    ((DotDims.transposedRhs M K N).rhsIdx i c 0).val = (i 1).val := by
  unfold DotDims.rhsIdx
  rw [dif_neg (show ¬(0 : Fin (⟨2, ![N, K]⟩ : Shape).rank) ∈ (DotDims.transposedRhs M K N).rhsBatch from List.not_mem_nil),
    dif_pos (show (0 : Fin (⟨2, ![N, K]⟩ : Shape).rank) ∈ (DotDims.transposedRhs M K N).rhsNonContracting from List.mem_cons_self)]
  rfl

/-- Each operand's contracted axis 1 follows the contraction index's one coordinate. -/
theorem lhs_axis1 (i : (⟨2, ![M, N]⟩ : Shape).Idx) (c : (DotDims.transposedRhs M K N).contr.Idx) :
    ((DotDims.transposedRhs M K N).lhsIdx i c 1).val = (c ⟨0, Nat.zero_lt_one⟩).val :=
  (DotDims.transposedRhs M K N).lhsIdx_val_of_single rfl i c
theorem rhs_axis1 (i : (⟨2, ![M, N]⟩ : Shape).Idx) (c : (DotDims.transposedRhs M K N).contr.Idx) :
    ((DotDims.transposedRhs M K N).rhsIdx i c 1).val = (c ⟨0, Nat.zero_lt_one⟩).val :=
  (DotDims.transposedRhs M K N).rhsIdx_val_of_single rfl i c

/-- So at output entry `(p, q)` and contraction coordinate `k` the left operand is read at `(p, k)` … -/
theorem lhsIdx_rows (p : Fin M) (q : Fin N) (k : Fin K) :
    (DotDims.transposedRhs M K N).lhsIdx (ix2 p q) ((contrEquiv1 (DotDims.transposedRhs M K N) K rfl rfl).symm k) = ix2 p k :=
  funext fun a => Fin.ext (by
    match a with
    | ⟨0, _⟩ => exact lhs_axis0 _ _
    | ⟨1, _⟩ => exact (lhs_axis1 _ _).trans (contrEquiv1_symm_val (DotDims.transposedRhs M K N) K rfl rfl k))

/-- … and the right operand at `(q, k)`. -/
theorem rhsIdx_rows (p : Fin M) (q : Fin N) (k : Fin K) :
    (DotDims.transposedRhs M K N).rhsIdx (ix2 p q) ((contrEquiv1 (DotDims.transposedRhs M K N) K rfl rfl).symm k) = ix2 q k :=
  funext fun a => Fin.ext (by
    match a with
    | ⟨0, _⟩ => exact rhs_axis0 _ _
    | ⟨1, _⟩ => exact (rhs_axis1 _ _).trans (contrEquiv1_symm_val (DotDims.transposedRhs M K N) K rfl rfl k))

/-- THE PRODUCT OF ROWS AT AN ENTRY. Over the extended reals, a matrix product with these dimension numbers (any record `D`
    that spells them: `hD`), accumulated into the zero array, holds at `(p, q)` the inner product of row `p` of the left operand
    and row `q` of the right: `∑ k, x[p, k] · y[q, k]`. -/
theorem matmul_rows_apply {φ₁ φ₂ : FTy} (D : DotDims ⟨2, ![M, K]⟩ ⟨2, ![N, K]⟩ ⟨2, ![M, N]⟩) (hD : D = DotDims.transposedRhs M K N)
    (prec : Option ContractPrecision) (x : FVec Ideal ⟨2, ![M, K]⟩ φ₁) (y : FVec Ideal ⟨2, ![N, K]⟩ φ₂) (p : Fin M) (q : Fin N) :
    FloatOps.matmul D prec x y (constant ⟨2, ![M, N]⟩ .f32 0x00000000#32) (ix2 p q) = ∑ k : Fin K, x (ix2 p k) * y (ix2 q k) := by
  subst hD
  rw [Ideal.matmul_constant_zero_apply, ← Equiv.sum_comp (contrEquiv1 (DotDims.transposedRhs M K N) K rfl rfl).symm]
  refine Finset.sum_congr rfl fun k _ => ?_
  rw [lhsIdx_rows, rhsIdx_rows]

/-- The same for the host's `dot_general`, which has no accumulator. -/
theorem dotGeneral_rows_apply {φ₁ φ₂ : FTy} (D : DotDims ⟨2, ![M, K]⟩ ⟨2, ![N, K]⟩ ⟨2, ![M, N]⟩) (hD : D = DotDims.transposedRhs M K N)
    (prec : Option ContractPrecision) (sched : HostSchedule) (x : FVec Ideal ⟨2, ![M, K]⟩ φ₁) (y : FVec Ideal ⟨2, ![N, K]⟩ φ₂)
    (p : Fin M) (q : Fin N) :
    FloatOps.dotGeneral D prec sched x y (ix2 p q) = ∑ k : Fin K, x (ix2 p k) * y (ix2 q k) := by
  subst hD
  rw [Ideal.dotGeneral_apply, ← Equiv.sum_comp (contrEquiv1 (DotDims.transposedRhs M K N) K rfl rfl).symm]
  refine Finset.sum_congr rfl fun k _ => ?_
  rw [lhsIdx_rows, rhsIdx_rows]

end Cert.Lib.DotRows

end
-- ==== Proof.LibColumns.lean ====
/-
  Column forms of layout operations, and a minimum taken along one axis, read at an index given by coordinates.

  A reduction that keeps its axis (`keepdims`) along the LAST axis of an `[a, b]` array leaves an `[a, 1]` column:
  the vector of per-row results cast from `[a]` to `[a, 1]`, later broadcast back over the `b` columns.  The two
  lemmas here read those operations at `ix2 …` indices, beside the library's row forms (`[a] → [1, a]`,
  `[1, b] → [a, b]`).  The third reads a `minimumf` reduction along one axis, at the ideal floats, as the fold of `min`
  from the accumulator's value over that axis's coordinates; the fourth says the f32 word `0x7F800000` is `⊤`.
-/
import Idealize.ShloMosaic.Lib.ValueLayout
import Idealize.ShloMosaic.PureOps.Ideal.Laws

namespace Idealize.ShloMosaic.ValueIdx

open Idealize.ShloMosaic

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry in row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A float `vector.multi_reduction <minimumf>` over one axis, read at the ideal floats: the fold of `min` from the
    accumulator's value over that axis's coordinates (a column's minimum). -/
theorem multiReduction_minimumf_single {φ : FTy} {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- The f32 word of `+∞` denotes `⊤`. -/
theorem ofBits_inf_f32 : Ideal.ofBits .f32 0x7F800000#32 = ⊤ := by
  simp [Ideal.ofBits, Ideal.ieee]

end Idealize.ShloMosaic.ValueIdx
-- ==== Proof.LibBlockSum.lean ====
/-
  General facts for setting a sum that is computed block by block beside the same sum computed in one pass.

  * `sum_range_blocks`: in any additive commutative monoid, the sum of `f` over the first `d · n` naturals is the sum,
    over the `n` consecutive blocks of length `d`, of each block's own sum. Only associativity and commutativity of
    the addition are used, so it holds on the extended reals, infinities included.
  * `at1`, `at2`: an array of rank one or two read at NATURAL coordinates — its entry when the coordinates are inside
    the extents, zero outside. With them a sum over positions of an array is a sum over naturals, and block offsets
    are plain arithmetic. `at1_eq` / `at2_eq`: at the coordinates of an index, they are the entry at that index.
-/
import Mathlib.Algebra.BigOperators.Intervals
import Mathlib.Algebra.BigOperators.Fin
import Idealize.ShloMosaic.Lib.ValueIdx

namespace Cert.LibBlockSum

open Finset Idealize.ShloMosaic Idealize.ShloMosaic.ValueIdx

/-- A sum over the first `d · n` naturals, regrouped into `n` consecutive blocks of `d` terms: position `d · s + k`
    is term `k` of block `s`. By induction on the number of blocks: the last block is split off the end of the range. -/
theorem sum_range_blocks {M : Type*} [AddCommMonoid M] (f : ℕ → M) (d : ℕ) :
    ∀ n : ℕ, ∑ i ∈ range (d * n), f i = ∑ s ∈ range n, ∑ k ∈ range d, f (d * s + k)
  | 0 => by simp
  | n + 1 => by
    rw [Nat.mul_succ, sum_range_add, sum_range_blocks f d n, sum_range_succ]

/-- A rank-1 array read at a natural coordinate: the entry there, or zero past the extent. -/
def at1 {M : Type*} [Zero M] {n : ℕ} (B : (⟨1, ![n]⟩ : Shape).Idx → M) (a : ℕ) : M :=
  if h : a < n then B (ix1 ⟨a, h⟩) else 0

/-- At the coordinate of an index, `at1` is the entry at that index. -/
theorem at1_eq {M : Type*} [Zero M] {n : ℕ} (B : (⟨1, ![n]⟩ : Shape).Idx → M) (i : (⟨1, ![n]⟩ : Shape).Idx) (a : ℕ)
    (ha : (i 0).val = a) : at1 B a = B i := by
  subst ha
  unfold at1
  rw [dif_pos (show (i 0).val < n from (i 0).isLt)]
  exact congrArg B (eq_ix1 i).symm

/-- A rank-2 array read at natural coordinates: the entry there, or zero outside the extents. -/
def at2 {M : Type*} [Zero M] {n0 n1 : ℕ} (A : (⟨2, ![n0, n1]⟩ : Shape).Idx → M) (a b : ℕ) : M :=
  if h : a < n0 ∧ b < n1 then A (ix2 ⟨a, h.1⟩ ⟨b, h.2⟩) else 0

/-- At the coordinates of an index, `at2` is the entry at that index. -/
theorem at2_eq {M : Type*} [Zero M] {n0 n1 : ℕ} (A : (⟨2, ![n0, n1]⟩ : Shape).Idx → M)
    (i : (⟨2, ![n0, n1]⟩ : Shape).Idx) (a b : ℕ) (ha : (i 0).val = a) (hb : (i 1).val = b) : at2 A a b = A i := by
  subst ha; subst hb
  unfold at2
  rw [dif_pos ⟨idx2_lt0 i, idx2_lt1 i⟩]
  exact congrArg A (eq_ix2 i).symm

end Cert.LibBlockSum
-- ==== Proof.Dice.lean ====
/-
  The dice similarity of two stacks of masks, entry by entry, and its block-by-block accumulation.

  For predicted masks `IM` (2 batches × 128 rows × 65536 positions) and target masks `TM` (2 × 64 × 65536) the dice
  similarity of row `n` against target `k` in batch `b` is

      (2 · ∑_q IM[b,n,q] · TM[b,k,q] + ε) / ((∑_q IM[b,n,q] + ∑_q TM[b,k,q]) + ε)

  on the extended reals, `2` and `ε` being the values two fixed f32 words denote.  The three sums run over the 65536
  positions; cut into 8 consecutive blocks of 8192 positions they are the sums, over the blocks, of each block's own
  sum (only associativity and commutativity of the addition are used, so nothing here asks the entries to be finite).
  `interUpTo` / `rowUpTo` are the partial sums over the blocks `0, …, h`; after the last block (`h = 7`) they are the
  whole sums.
-/
import Idealize.ShloMosaic.PureOps.Ideal.Laws
import Idealize.ShloMosaic.Lib.ValueIdx
import proofs.«175453_j41961830481930_1_alg».proof.Proof.LibBlockSum

noncomputable section

open scoped BigOperators

namespace Cert.Dice

open Finset Idealize.ShloMosaic Idealize.ShloMosaic.ValueIdx

/-- A stack of `2 × r` rows of 65536 positions. -/
abbrev Rows (r : ℕ) : Type := (⟨3, ![2, r, 65536]⟩ : Shape).Idx → EReal

/-- Position `q` of row `(b, n)`, read at a NATURAL position: zero past the row's 65536 positions. -/
def at3 {r : ℕ} (A : Rows r) (b : Fin 2) (n : Fin r) (q : ℕ) : EReal :=
  if h : q < 65536 then A (ix3 b n ⟨q, h⟩) else 0

theorem at3_lt {r : ℕ} (A : Rows r) (b : Fin 2) (n : Fin r) (q : ℕ) (h : q < 65536) :
    at3 A b n q = A (ix3 b n ⟨q, h⟩) := dif_pos h

/-- The value of the f32 word of `2.0`. -/
def two : EReal := Ideal.ofBits .f32 0x40000000#32
/-- The value of the f32 word nearest `1e-5`. -/
def eps : EReal := Ideal.ofBits .f32 0x3727C5AC#32

/-- The intersection of row `n` of `IM` with row `k` of `TM` in batch `b`: the sum of the products over all positions. -/
def inter (IM : Rows 128) (TM : Rows 64) (b : Fin 2) (n : Fin 128) (k : Fin 64) : EReal :=
  ∑ q : Fin 65536, IM (ix3 b n q) * TM (ix3 b k q)

/-- The sum of one row. -/
def rowSum {r : ℕ} (A : Rows r) (b : Fin 2) (n : Fin r) : EReal := ∑ q : Fin 65536, A (ix3 b n q)

/-- The dice similarity at `(b, n, k)`. -/
def diceAt (IM : Rows 128) (TM : Rows 64) (b : Fin 2) (n : Fin 128) (k : Fin 64) : EReal :=
  Ideal.div (two * inter IM TM b n k + eps) ((rowSum IM b n + rowSum TM b k) + eps)

/-- The dice similarities as an array. -/
def dice (IM : Rows 128) (TM : Rows 64) : (⟨3, ![2, 128, 64]⟩ : Shape).Idx → EReal :=
  fun i => diceAt IM TM (i 0) (i 1) (i 2)

theorem dice_ix3 (IM : Rows 128) (TM : Rows 64) (b : Fin 2) (n : Fin 128) (k : Fin 64) :
    dice IM TM (ix3 b n k) = diceAt IM TM b n k := rfl

/-- The products summed over the blocks `0, …, h` of 8192 positions. -/
def interUpTo (IM : Rows 128) (TM : Rows 64) (b : Fin 2) (n : Fin 128) (k : Fin 64) (h : ℕ) : EReal :=
  ∑ s ∈ range (h + 1), ∑ p ∈ range 8192, at3 IM b n (8192 * s + p) * at3 TM b k (8192 * s + p)

/-- A row summed over the blocks `0, …, h` of 8192 positions. -/
def rowUpTo {r : ℕ} (A : Rows r) (b : Fin 2) (n : Fin r) (h : ℕ) : EReal :=
  ∑ s ∈ range (h + 1), ∑ p ∈ range 8192, at3 A b n (8192 * s + p)

/-- The first block alone. -/
theorem interUpTo_zero (IM : Rows 128) (TM : Rows 64) (b : Fin 2) (n : Fin 128) (k : Fin 64) :
    interUpTo IM TM b n k 0 = ∑ p ∈ range 8192, at3 IM b n (8192 * 0 + p) * at3 TM b k (8192 * 0 + p) := by
  unfold interUpTo; rw [Nat.zero_add, sum_range_one]

/-- One more block. -/
theorem interUpTo_succ (IM : Rows 128) (TM : Rows 64) (b : Fin 2) (n : Fin 128) (k : Fin 64) (h : ℕ) :
    interUpTo IM TM b n k (h + 1)
      = interUpTo IM TM b n k h + ∑ p ∈ range 8192, at3 IM b n (8192 * (h + 1) + p) * at3 TM b k (8192 * (h + 1) + p) := by
  unfold interUpTo; rw [sum_range_succ _ (h + 1)]

theorem rowUpTo_zero {r : ℕ} (A : Rows r) (b : Fin 2) (n : Fin r) :
    rowUpTo A b n 0 = ∑ p ∈ range 8192, at3 A b n (8192 * 0 + p) := by
  unfold rowUpTo; rw [Nat.zero_add, sum_range_one]

theorem rowUpTo_succ {r : ℕ} (A : Rows r) (b : Fin 2) (n : Fin r) (h : ℕ) :
    rowUpTo A b n (h + 1) = rowUpTo A b n h + ∑ p ∈ range 8192, at3 A b n (8192 * (h + 1) + p) := by
  unfold rowUpTo; rw [sum_range_succ _ (h + 1)]

/-- After the eighth block the products have been summed over every position. -/
theorem interUpTo_seven (IM : Rows 128) (TM : Rows 64) (b : Fin 2) (n : Fin 128) (k : Fin 64) :
    interUpTo IM TM b n k 7 = inter IM TM b n k := by
  unfold interUpTo inter
  rw [← Cert.LibBlockSum.sum_range_blocks (fun q => at3 IM b n q * at3 TM b k q) 8192 (7 + 1)]
  rw [show 8192 * (7 + 1) = 65536 from rfl, Finset.sum_range]
  exact Finset.sum_congr rfl fun q _ => by rw [at3_lt IM b n q.val q.isLt, at3_lt TM b k q.val q.isLt]

/-- After the eighth block a row has been summed over every position. -/
theorem rowUpTo_seven {r : ℕ} (A : Rows r) (b : Fin 2) (n : Fin r) : rowUpTo A b n 7 = rowSum A b n := by
  unfold rowUpTo rowSum
  rw [← Cert.LibBlockSum.sum_range_blocks (fun q => at3 A b n q) 8192 (7 + 1)]
  rw [show 8192 * (7 + 1) = 65536 from rfl, Finset.sum_range]
  exact Finset.sum_congr rfl fun q _ => by rw [at3_lt A b n q.val q.isLt]

end Cert.Dice

end
-- ==== Proof.Payloads.lean ====
/-
  The kernel body's four stored values, read at one entry on the extended reals.

  * the intersections' update: the accumulator's entry `(n, k)` plus the sum, over the block's 8192 positions, of the
    products of row `n` of the predicted-mask block and row `k` of the target-mask block (the matrix product contracts
    the last axis of both blocks into the zero accumulator; rounding the blocks to bf16 first is the identity here);
  * the two row-sum updates: the accumulator's entry `(n, 0)` plus the sum of row `n` of the block over its 8192
    positions (a lane sum along the last axis, cast to a column);
  * the output block: at `(0, n, k)`, `(2 · I[n,k] + ε) / ((R[n,0] + C[k,0]) + ε)` of the three accumulators — the
    row-sum column broadcast over the targets, the target-sum column transposed to a row and broadcast over the rows.
-/
import proofs.«175453_j41961830481930_1_alg».proof.Proof.Gen.KernelIdeal.Skeleton
import proofs.«175453_j41961830481930_1_alg».proof.Proof.LibDotRows
import proofs.«175453_j41961830481930_1_alg».proof.Proof.LibColumns
import proofs.«175453_j41961830481930_1_alg».proof.Proof.Dice
import Idealize.ShloMosaic.Lib.ValueLayout
import Idealize.ShloMosaic.Lib.Pipeline.Value
import Idealize.ShloMosaic.PureOps.Ideal.Laws

noncomputable section

open scoped BigOperators

namespace Cert.KernelIdeal.Payloads

open Cert.KernelIdeal Cert.KernelIdeal.Gen Idealize.ShloMosaic Idealize.ShloMosaic.ValueIdx

/-- The coordinates a sum along the last axis of a `128 × 8192` block runs over at row `n`. -/
theorem lift_rows (h : S128x8192.Reduces [1] S128) (n : Fin 128) (p : Fin 8192) : h.lift (ix1 n) p = ix2 n p :=
  funext fun a => Fin.ext (by match a with | ⟨0, _⟩ => rfl | ⟨1, _⟩ => rfl)

/-- The same for a `64 × 8192` block. -/
theorem lift_cols (h : S64x8192.Reduces [1] S64) (k : Fin 64) (p : Fin 8192) : h.lift (ix1 k) p = ix2 k p :=
  funext fun a => Fin.ext (by match a with | ⟨0, _⟩ => rfl | ⟨1, _⟩ => rfl)

/-- The intersections' update at `(n, k)`. -/
theorem inter_step (x0 : FVec Ideal S1x128x8192 .f32) (x1 : FVec Ideal S1x64x8192 .f32) (acc : FVec Ideal S128x64 .f32)
    (n : Fin 128) (k : Fin 64) :
    k0_pay7 x0 x1 acc (ix2 n k)
      = acc (ix2 n k) + ∑ p : Fin 8192, x0 (ix3 (0 : Fin 1) n p) * x1 (ix3 (0 : Fin 1) k p) := by
  unfold k0_pay7 k0_pay5 k0_pay6
  rw [shapeCast_self]
  refine (addf_apply _ _ _).trans (congrArg (acc (ix2 n k) + ·) ?_)
  refine (Cert.Lib.DotRows.matmul_rows_apply (M := 128) (K := 8192) (N := 64) _ rfl none _ _ n k).trans ?_
  refine Finset.sum_congr rfl fun p _ => ?_
  rw [truncf_apply, truncf_apply, shapeCast_1ab_ab_apply, shapeCast_1ab_ab_apply]

/-- The predicted masks' row-sum update at `(n, 0)`. -/
theorem rows_step (x0 : FVec Ideal S1x128x8192 .f32) (acc : FVec Ideal S128x1 .f32) (n : Fin 128) (u : Fin 1) :
    k0_pay8 x0 acc (ix2 n u) = acc (ix2 n u) + ∑ p : Fin 8192, x0 (ix3 (0 : Fin 1) n p) := by
  unfold k0_pay8 k0_pay5
  rw [shapeCast_self]
  refine (addf_apply _ _ _).trans (congrArg (acc (ix2 n u) + ·) ?_)
  refine (shapeCast_a_a1_apply _ _ n u).trans ?_
  refine (Ideal.multiReduction_add_single _ _ _ _ _ (ix1 n)).trans ?_
  show ∑ p : Fin 8192, _ = _
  refine Finset.sum_congr rfl fun p _ => ?_
  rw [lift_rows, shapeCast_1ab_ab_apply]

/-- The target masks' row-sum update at `(k, 0)`. -/
theorem cols_step (x1 : FVec Ideal S1x64x8192 .f32) (acc : FVec Ideal S64x1 .f32) (k : Fin 64) (u : Fin 1) :
    k0_pay9 x1 acc (ix2 k u) = acc (ix2 k u) + ∑ p : Fin 8192, x1 (ix3 (0 : Fin 1) k p) := by
  unfold k0_pay9 k0_pay6
  rw [shapeCast_self]
  refine (addf_apply _ _ _).trans (congrArg (acc (ix2 k u) + ·) ?_)
  refine (shapeCast_a_a1_apply _ _ k u).trans ?_
  refine (Ideal.multiReduction_add_single _ _ _ _ _ (ix1 k)).trans ?_
  show ∑ p : Fin 8192, _ = _
  refine Finset.sum_congr rfl fun p _ => ?_
  rw [lift_cols, shapeCast_1ab_ab_apply]

/-- The zero the accumulators are reset to is the extended real `0` at every entry. -/
theorem zero_inter (j : S128x64.Idx) : (k0_pay2 : FVec Ideal S128x64 .f32) j = 0 := by
  unfold k0_pay2; rw [shapeCast_self]; exact Ideal.ofBits_zero_f32
theorem zero_rows (j : S128x1.Idx) : (k0_pay3 : FVec Ideal S128x1 .f32) j = 0 := by
  unfold k0_pay3; rw [shapeCast_self]; exact Ideal.ofBits_zero_f32
theorem zero_cols (j : S64x1.Idx) : (k0_pay4 : FVec Ideal S64x1 .f32) j = 0 := by
  unfold k0_pay4; rw [shapeCast_self]; exact Ideal.ofBits_zero_f32

/-- The output block at `(0, n, k)`: the quotient of the three accumulators' entries. -/
theorem quotient_apply (rows : FVec Ideal S128x1 .f32) (cols : FVec Ideal S64x1 .f32) (inter : FVec Ideal S128x64 .f32)
    (u : Fin 1) (n : Fin 128) (k : Fin 64) :
    k0_pay1 (F := Ideal) rows cols inter (ix3 u n k)
      = Ideal.div (Cert.Dice.two * inter (ix2 n k) + Cert.Dice.eps)
          ((rows (ix2 n (0 : Fin 1)) + cols (ix2 k (0 : Fin 1))) + Cert.Dice.eps) := by
  unfold k0_pay1
  refine (shapeCast_ab_1ab_apply _ _ u n k).trans ?_
  show Ideal.div (Ideal.ofBits .f32 0x40000000#32 * inter (ix2 n k) + Ideal.ofBits .f32 0x3727C5AC#32)
      ((broadcastTo S128x64 rows _ (ix2 n k) + broadcastTo S128x64 (transpose S1x64 [1, 0] cols _) _ (ix2 n k))
        + Ideal.ofBits .f32 0x3727C5AC#32) = _
  rw [broadcastTo_a1_ab_apply, broadcastTo_1b_ab_apply, transpose_ix2_apply]
  rfl

end Cert.KernelIdeal.Payloads

end
-- ==== Proof.Accum.lean ====
/-
  The three accumulators along the grid, and what a batch's last point stores.

  The grid has 16 points: point `t` works on batch `t / 8` and on block `t % 8` of the 65536 positions (8192 positions a
  block).  The block of the predicted masks the point is handed holds, at `(0, n, p)`, the array's entry
  `(t / 8, n, 8192 · (t % 8) + p)`, and likewise for the target masks.  By induction along the grid the three carried
  accumulators hold, after point `t`, the partial sums over the blocks `0, …, t % 8` of batch `t / 8`: a batch's first
  point starts from zero, every later point adds its block's sum to what the point before left (which belongs to the
  same batch).  At a batch's last point (`t % 8 = 7`) the partial sums are the whole sums, so the block the point stores
  is the dice similarity of the batch.
-/
import proofs.«175453_j41961830481930_1_alg».proof.Proof.Pieces
import proofs.«175453_j41961830481930_1_alg».proof.Proof.Payloads
import proofs.«175453_j41961830481930_1_alg».proof.Proof.Dice

noncomputable section

open scoped BigOperators

namespace Cert.KernelIdeal.Accum

open Cert.KernelIdeal Cert.KernelIdeal.Gen Idealize.ShloMosaic Idealize.ShloMosaic.TcCoe Idealize.SL.Sem
open Idealize.ShloMosaic.ValueIdx Cert.Dice Finset

variable (m : (ℓ : Loc nD τ sig) → Buf (Elt Ideal) ℓ)

/-- The predicted masks as the region finds them. -/
abbrev IM (c : Dev nD) : Rows 128 := V m c main_arg1
/-- The target masks as the region finds them. -/
abbrev TM (c : Dev nD) : Rows 64 := V m c main_arg2

/-- The batch position `n` of the grid works on. -/
def batN (n : ℕ) (hn : n < cfg0.N) : Fin 2 :=
  ⟨n / 8, by have h : n < 16 := lt_of_lt_of_eq hn (show cfg0.N = 16 from N_0); omega⟩

/-- The printed index maps, decided over the grid: both inputs' blocks are (batch, 0, block), the output's (batch, 0, 0). -/
theorem idx_facts : ∀ t : Fin cfg0.N,
    win0_0.index t (0 : Fin 3) = t.val / 8 ∧ win0_0.index t (1 : Fin 3) = 0 ∧ win0_0.index t (2 : Fin 3) = t.val % 8
    ∧ win0_1.index t (0 : Fin 3) = t.val / 8 ∧ win0_1.index t (1 : Fin 3) = 0 ∧ win0_1.index t (2 : Fin 3) = t.val % 8
    ∧ win0_2.index t (0 : Fin 3) = t.val / 8 ∧ win0_2.index t (1 : Fin 3) = 0 ∧ win0_2.index t (2 : Fin 3) = 0 :=
  (by decide +kernel : ∀ t : Fin grid0.N, _)

/-- Point `t`'s block of the predicted masks, as the body is handed it. -/
def blkIM (c : Dev nD) (t : Fin cfg0.N) : FVec Ideal S1x128x8192 .f32 := iblk m c 0 t
/-- Point `t`'s block of the target masks, as the body is handed it. -/
def blkTM (c : Dev nD) (t : Fin cfg0.N) : FVec Ideal S1x64x8192 .f32 := iblk m c 1 t

/-- Point `t`'s block of the predicted masks, at `(0, n, p)`. -/
theorem block_im (c : Dev nD) (t : Fin cfg0.N) (n : Fin 128) (p : Fin 8192) :
    blkIM m c t (ix3 (0 : Fin 1) n p)
      = at3 (IM m c) (batN t.val t.isLt) n (8192 * (t.val % 8) + p.val) := by
  have hN : t.val < 16 := lt_of_lt_of_eq t.isLt (show cfg0.N = 16 from N_0)
  have hp : p.val < 8192 := p.isLt
  rw [at3_lt _ _ _ _ (by omega)]
  obtain ⟨e0, e1, e2, -⟩ := idx_facts t
  show V m c main_arg1 (((cfg0.win 0).blk t).view.emb (ix3 (0 : Fin 1) n p)) = V m c main_arg1 _
  refine congrArg (V m c main_arg1) (funext fun a => Fin.ext ?_)
  match a with
  | ⟨0, _⟩ => show win0_0.index t (0 : Fin 3) * 1 + 1 * 0 = t.val / 8; omega
  | ⟨1, _⟩ => show win0_0.index t (1 : Fin 3) * 128 + 1 * n.val = n.val; omega
  | ⟨2, _⟩ => show win0_0.index t (2 : Fin 3) * 8192 + 1 * p.val = 8192 * (t.val % 8) + p.val; omega

/-- Point `t`'s block of the target masks, at `(0, k, p)`. -/
theorem block_tm (c : Dev nD) (t : Fin cfg0.N) (k : Fin 64) (p : Fin 8192) :
    blkTM m c t (ix3 (0 : Fin 1) k p)
      = at3 (TM m c) (batN t.val t.isLt) k (8192 * (t.val % 8) + p.val) := by
  have hN : t.val < 16 := lt_of_lt_of_eq t.isLt (show cfg0.N = 16 from N_0)
  have hp : p.val < 8192 := p.isLt
  rw [at3_lt _ _ _ _ (by omega)]
  obtain ⟨-, -, -, e0, e1, e2, -⟩ := idx_facts t
  show V m c main_arg2 (((cfg0.win 1).blk t).view.emb (ix3 (0 : Fin 1) k p)) = V m c main_arg2 _
  refine congrArg (V m c main_arg2) (funext fun a => Fin.ext ?_)
  match a with
  | ⟨0, _⟩ => show win0_1.index t (0 : Fin 3) * 1 + 1 * 0 = t.val / 8; omega
  | ⟨1, _⟩ => show win0_1.index t (1 : Fin 3) * 64 + 1 * k.val = k.val; omega
  | ⟨2, _⟩ => show win0_1.index t (2 : Fin 3) * 8192 + 1 * p.val = 8192 * (t.val % 8) + p.val; omega

/-- The point's contribution to the intersections: its block's sum of products. -/
theorem blocksum_inter (c : Dev nD) (t : Fin cfg0.N) (n : Fin 128) (k : Fin 64) :
    ∑ p : Fin 8192, blkIM m c t (ix3 (0 : Fin 1) n p)
        * blkTM m c t (ix3 (0 : Fin 1) k p)
      = ∑ p ∈ range 8192, at3 (IM m c) (batN t.val t.isLt) n (8192 * (t.val % 8) + p)
          * at3 (TM m c) (batN t.val t.isLt) k (8192 * (t.val % 8) + p) := by
  rw [Finset.sum_range]
  exact Finset.sum_congr rfl fun p _ => by rw [block_im, block_tm]

/-- The point's contribution to a predicted row's sum. -/
theorem blocksum_rows (c : Dev nD) (t : Fin cfg0.N) (n : Fin 128) :
    ∑ p : Fin 8192, blkIM m c t (ix3 (0 : Fin 1) n p)
      = ∑ p ∈ range 8192, at3 (IM m c) (batN t.val t.isLt) n (8192 * (t.val % 8) + p) := by
  rw [Finset.sum_range]
  exact Finset.sum_congr rfl fun p _ => by rw [block_im]

/-- The point's contribution to a target row's sum. -/
theorem blocksum_cols (c : Dev nD) (t : Fin cfg0.N) (k : Fin 64) :
    ∑ p : Fin 8192, blkTM m c t (ix3 (0 : Fin 1) k p)
      = ∑ p ∈ range 8192, at3 (TM m c) (batN t.val t.isLt) k (8192 * (t.val % 8) + p) := by
  rw [Finset.sum_range]
  exact Finset.sum_congr rfl fun p _ => by rw [block_tm]

/-- What the three accumulators hold after position `n`: the partial sums over the blocks `0, …, n % 8` of its batch. -/
def Holds (c : Dev nD) (n : ℕ) (hn : n < cfg0.N) : Prop :=
  (∀ (r : Fin 128) (k : Fin 64),
      ((outsAt0 m c n hn).2.1 : FVec Ideal S128x64 .f32) (ix2 r k) = interUpTo (IM m c) (TM m c) (batN n hn) r k (n % 8))
  ∧ (∀ (r : Fin 128) (u : Fin 1),
      ((outsAt0 m c n hn).2.2.1 : FVec Ideal S128x1 .f32) (ix2 r u) = rowUpTo (IM m c) (batN n hn) r (n % 8))
  ∧ (∀ (k : Fin 64) (u : Fin 1),
      ((outsAt0 m c n hn).2.2.2 : FVec Ideal S64x1 .f32) (ix2 k u) = rowUpTo (TM m c) (batN n hn) k (n % 8))

/-- A batch's first point: zero plus the first block. -/
theorem holds_first (c : Dev nD) (t : Fin cfg0.N) (h0 : t.val % 8 = 0) : Holds m c t.val t.isLt := by
  have h1 : ¬t.val % 8 = 7 := by omega
  unfold Holds
  rw [outsAt0_A m c t h0 h1]
  dsimp only
  refine ⟨fun r k => ?_, fun r u => ?_, fun k u => ?_⟩
  · refine (congrFun (Pieces.first_inter (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t)) (ix2 r k)).trans ?_
    refine (Payloads.inter_step (blkIM m c t) (blkTM m c t) k0_pay2 r k).trans ?_
    rw [Payloads.zero_inter, zero_add, blocksum_inter, h0, interUpTo_zero]
  · refine (congrFun (Pieces.first_rows (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t)) (ix2 r u)).trans ?_
    refine (Payloads.rows_step (blkIM m c t) k0_pay3 r u).trans ?_
    rw [Payloads.zero_rows, zero_add, blocksum_rows, h0, rowUpTo_zero]
  · refine (congrFun (Pieces.first_cols (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t)) (ix2 k u)).trans ?_
    refine (Payloads.cols_step (blkTM m c t) k0_pay4 k u).trans ?_
    rw [Payloads.zero_cols, zero_add, blocksum_cols, h0, rowUpTo_zero]

/-- A later point of a batch: its block added to what the point before (of the same batch) left. -/
theorem holds_next (c : Dev nD) (t : Fin cfg0.N) (h0 : ¬t.val % 8 = 0)
    (hp : Holds m c (t.val - 1) (Nat.lt_of_le_of_lt (Nat.sub_le _ _) t.isLt)) : Holds m c t.val t.isLt := by
  have hN : t.val < 16 := lt_of_lt_of_eq t.isLt (show cfg0.N = 16 from N_0)
  obtain ⟨s, hs⟩ : ∃ s, t.val % 8 = s + 1 := ⟨t.val % 8 - 1, by omega⟩
  have hs' : (t.val - 1) % 8 = s := by omega
  have hb : batN (t.val - 1) (Nat.lt_of_le_of_lt (Nat.sub_le _ _) t.isLt) = batN t.val t.isLt :=
    Fin.ext (by show (t.val - 1) / 8 = t.val / 8; omega)
  obtain ⟨p0, p1, p2⟩ := hp
  rw [hb, hs'] at p0 p1 p2
  unfold Holds
  by_cases h1 : t.val % 8 = 7
  · rw [outsAt0_C m c t h0 h1]
    dsimp only
    refine ⟨fun r k => ?_, fun r u => ?_, fun k u => ?_⟩
    · refine (congrFun (Pieces.last_inter (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2) (ix2 r k)).trans ?_
      refine (Payloads.inter_step (blkIM m c t) (blkTM m c t) (outsAt0 m c (t.val - 1) (Nat.lt_of_le_of_lt (Nat.sub_le _ _) t.isLt)).2.1 r k).trans ?_
      rw [p0 r k, blocksum_inter, hs, interUpTo_succ]
    · refine (congrFun (Pieces.last_rows (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2) (ix2 r u)).trans ?_
      refine (Payloads.rows_step (blkIM m c t) (outsAt0 m c (t.val - 1) (Nat.lt_of_le_of_lt (Nat.sub_le _ _) t.isLt)).2.2.1 r u).trans ?_
      rw [p1 r u, blocksum_rows, hs, rowUpTo_succ]
    · refine (congrFun (Pieces.last_cols (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2) (ix2 k u)).trans ?_
      refine (Payloads.cols_step (blkTM m c t) (outsAt0 m c (t.val - 1) (Nat.lt_of_le_of_lt (Nat.sub_le _ _) t.isLt)).2.2.2 k u).trans ?_
      rw [p2 k u, blocksum_cols, hs, rowUpTo_succ]
  · rw [outsAt0_B m c t h0 h1]
    dsimp only
    refine ⟨fun r k => ?_, fun r u => ?_, fun k u => ?_⟩
    · refine (congrFun (Pieces.mid_inter (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2) (ix2 r k)).trans ?_
      refine (Payloads.inter_step (blkIM m c t) (blkTM m c t) (outsAt0 m c (t.val - 1) (Nat.lt_of_le_of_lt (Nat.sub_le _ _) t.isLt)).2.1 r k).trans ?_
      rw [p0 r k, blocksum_inter, hs, interUpTo_succ]
    · refine (congrFun (Pieces.mid_rows (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2) (ix2 r u)).trans ?_
      refine (Payloads.rows_step (blkIM m c t) (outsAt0 m c (t.val - 1) (Nat.lt_of_le_of_lt (Nat.sub_le _ _) t.isLt)).2.2.1 r u).trans ?_
      rw [p1 r u, blocksum_rows, hs, rowUpTo_succ]
    · refine (congrFun (Pieces.mid_cols (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2) (ix2 k u)).trans ?_
      refine (Payloads.cols_step (blkTM m c t) (outsAt0 m c (t.val - 1) (Nat.lt_of_le_of_lt (Nat.sub_le _ _) t.isLt)).2.2.2 k u).trans ?_
      rw [p2 k u, blocksum_cols, hs, rowUpTo_succ]

/-- So the accumulators hold their batch's partial sums after every point. -/
theorem holds_all (c : Dev nD) : ∀ (n : ℕ) (hn : n < cfg0.N), Holds m c n hn
  | 0, hn => holds_first m c ⟨0, hn⟩ rfl
  | n + 1, hn => by
    by_cases h0 : (n + 1) % 8 = 0
    · exact holds_first m c ⟨n + 1, hn⟩ h0
    · exact holds_next m c ⟨n + 1, hn⟩ h0 (holds_all c n (Nat.lt_of_succ_lt hn))

/-- A batch's last point stores, at `(0, r, k)`, the dice similarity of row `r` and target `k` of its batch: the quotient of
    the three accumulators it has just brought to the whole sums. -/
theorem last_block (c : Dev nD) (t : Fin cfg0.N) (h1 : t.val % 8 = 7) (u : Fin 1) (r : Fin 128) (k : Fin 64) :
    ((outsAt0 m c t.val t.isLt).1 : FVec Ideal S1x128x64 .f32) (ix3 u r k)
      = diceAt (IM m c) (TM m c) (batN t.val t.isLt) r k := by
  have h0 : ¬t.val % 8 = 0 := by omega
  obtain ⟨q0, q1, q2⟩ := holds_all m c t.val t.isLt
  have e : (outsAt0 m c t.val t.isLt).1
      = k0_pay1 (F := Ideal) (outsAt0 m c t.val t.isLt).2.2.1 (outsAt0 m c t.val t.isLt).2.2.2 (outsAt0 m c t.val t.isLt).2.1 := by
    rw [outsAt0_C m c t h0 h1]
    dsimp only
    rw [Pieces.last_inter (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, Pieces.last_rows (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2,
      Pieces.last_cols (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2]
    exact Pieces.last_out (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2
  rw [e]
  refine (Payloads.quotient_apply _ _ _ u r k).trans ?_
  rw [q0 r k, q1 r 0, q2 k 0, h1, interUpTo_seven, rowUpTo_seven, rowUpTo_seven]
  rfl

end Cert.KernelIdeal.Accum

end
-- ==== Proof.KernelValue.lean ====
/-
  The idealized kernel program's result as one function of its arguments.

  The region's output array is written back once per batch, at the batch's last grid point, and the block written then is
  that batch's slice of the dice similarity of the two mask arrays (`Accum.last_block`); the two blocks tile the array, so
  after the region the array is `Cert.Dice.dice` of the masks.  The host lines after the region gather the class
  probabilities at the target classes (they read the first and fourth arguments only) and multiply the gathered array,
  entry by entry, with the region's array.  The gathered array is written with the term the reference's program uses for
  the same lines, so that the two programs' results are stated over the same two factors.
-/
import proofs.«175453_j41961830481930_1_alg».proof.Proof.Accum
import proofs.«175453_j41961830481930_1_alg».proof.Proof.RefRead
import Idealize.ShloMosaic.Lib.Pipeline.Value
import Idealize.ShloMosaic.Lib.StableHlo.Run

noncomputable section

namespace Cert.KernelIdeal.KValue

open Cert.KernelIdeal Cert.KernelIdeal.Gen Idealize.ShloMosaic Idealize.ShloMosaic.TcCoe Idealize.SL.Sem
open Idealize.ShloMosaic.ValueIdx Cert.Dice Cert.KernelIdeal.Accum
open Idealize.ShloMosaic.Pipeline (Dat)

variable (m : (ℓ : Loc nD τ sig) → Buf (Elt Ideal) ℓ) (ρ : Dev nD → PrngReg)

/-- Where an index of point `t`'s output block sits in the array: row and target unchanged, the batch the point's. -/
theorem out_emb (t : Fin cfg0.N) (u : Fin 1) (r : Fin 128) (k : Fin 64) :
    ((cfg0.win 2).blk t).view.emb (ix3 u r k) = (ix3 (batN t.val t.isLt) r k : S2x128x64.Idx) := by
  obtain ⟨-, -, -, -, -, -, e0, e1, e2⟩ := idx_facts t
  have hu : u.val = 0 := by omega
  refine funext fun a => Fin.ext ?_
  match a with
  | ⟨0, _⟩ => show win0_2.index t (0 : Fin 3) * 1 + 1 * u.val = t.val / 8; omega
  | ⟨1, _⟩ => show win0_2.index t (1 : Fin 3) * 128 + 1 * r.val = r.val; omega
  | ⟨2, _⟩ => show win0_2.index t (2 : Fin 3) * 64 + 1 * k.val = k.val; omega

/-- If the block point `t` leaves agrees, entry by entry, with an array `G` at the point's batch, then what the point writes
    back is its block of `G`. -/
theorem flushed_eq_of (c : Dev nD) (t : Fin cfg0.N) (G : FVec Ideal S2x128x64 .f32)
    (hG : ∀ (u : Fin 1) (r : Fin 128) (k : Fin 64),
      ((outsAt0 m c t.val t.isLt).1 : FVec Ideal S1x128x64 .f32) (ix3 u r k) = G (ix3 (batN t.val t.isLt) r k)) :
    (dats m 0 c).flushed 2 t = ((cfg0.win 2).blk t).view.read (Elt Ideal) G := by
  show (cfg0.win 2).cut (grid0.coords t) ((dats m 0 c).after 2 t) = _
  rw [after0_2]
  refine funext fun (y : S1x128x64.Idx) => ?_
  obtain ⟨u, r, k, rfl⟩ : ∃ (u : Fin 1) (r : Fin 128) (k : Fin 64), y = ix3 u r k := ⟨y 0, y 1, y 2, eq_ix3 y⟩
  show ((outsAt0 m c t.val t.isLt).1 : FVec Ideal S1x128x64 .f32) (ix3 u r k)
    = G (((cfg0.win 2).blk t).view.emb (ix3 u r k))
  rw [hG u r k, out_emb t u r k]

/-- What a writing-back point writes back is its block of the dice similarities of the masks. -/
theorem flushed_eq (c : Dev nD) (t : Fin cfg0.N) (hf : (cfg0.win 2).flush t = true) :
    (dats m 0 c).flushed 2 t = ((cfg0.win 2).blk t).view.read (Elt Ideal) (dice (IM m c) (TM m c)) :=
  flushed_eq_of m c t (dice (IM m c) (TM m c)) fun u r k =>
    (last_block m c t ((flush0_2 t).mp hf) u r k).trans (dice_ix3 (IM m c) (TM m c) (batN t.val t.isLt) r k).symm

/-- An index of the output array is in point `t`'s block iff each coordinate is in the block's range on its axis. -/
theorem mem_blk (t : Fin cfg0.N) (i : S2x128x64.Idx) :
    i ∈ ((cfg0.win 2).blk t).view.set ↔ ∀ a : Fin 3, win0_2.index t a * S1x128x64.size a ≤ (i a).val
      ∧ (i a).val < win0_2.index t a * S1x128x64.size a + S1x128x64.size a := by
  show i ∈ ((View.whole main_v0).slice (win0_2.rect t)).set ↔ _
  rw [View.set_slice_whole, Rect.mem_set_unit]
  exact Iff.rfl

/-- Every index of the output array is in the block of its batch's last point. -/
theorem cover (i : S2x128x64.Idx) :
    ∃ t : Fin cfg0.N, (cfg0.win 2).flush t = true ∧ i ∈ ((cfg0.win 2).blk t).view.set := by
  have h0 : (i 0).val < 2 := (i 0).isLt
  have h1 : (i 1).val < 128 := (i 1).isLt
  have h2 : (i 2).val < 64 := (i 2).isLt
  have hlt : 8 * (i 0).val + 7 < cfg0.N := by rw [show cfg0.N = 16 from N_0]; omega
  refine ⟨⟨8 * (i 0).val + 7, hlt⟩, (flush0_2 _).mpr (by show (8 * (i 0).val + 7) % 8 = 7; omega), ?_⟩
  rw [mem_blk]
  obtain ⟨-, -, -, -, -, -, e0, e1, e2⟩ := idx_facts ⟨8 * (i 0).val + 7, hlt⟩
  have e0' : win0_2.index ⟨8 * (i 0).val + 7, hlt⟩ (0 : Fin 3) = (8 * (i 0).val + 7) / 8 := e0
  intro a
  match a with
  | ⟨0, _⟩ =>
    show win0_2.index ⟨8 * (i 0).val + 7, hlt⟩ (0 : Fin 3) * 1 ≤ (i 0).val
      ∧ (i 0).val < win0_2.index ⟨8 * (i 0).val + 7, hlt⟩ (0 : Fin 3) * 1 + 1
    omega
  | ⟨1, _⟩ =>
    show win0_2.index ⟨8 * (i 0).val + 7, hlt⟩ (1 : Fin 3) * 128 ≤ (i 1).val
      ∧ (i 1).val < win0_2.index ⟨8 * (i 0).val + 7, hlt⟩ (1 : Fin 3) * 128 + 128
    omega
  | ⟨2, _⟩ =>
    show win0_2.index ⟨8 * (i 0).val + 7, hlt⟩ (2 : Fin 3) * 64 ≤ (i 2).val
      ∧ (i 2).val < win0_2.index ⟨8 * (i 0).val + 7, hlt⟩ (2 : Fin 3) * 64 + 64
    omega

/-- After the region its output array holds the dice similarities of the masks. -/
theorem region_out (c : Dev nD) : (dats m 0 c).arrAt 2 cfg0.N = dice (IM m c) (TM m c) :=
  (dats m 0 c).arrAt_eq_of_cover 2 (dice (IM m c) (TM m c)) (flushed_eq m c) cover

/-- The kernel program's result array: the class probabilities gathered at the target classes (the reference's term for
    these lines, at the kernel program's first and fourth arguments) times the dice similarities of the masks. -/
def result (c : Dev nD) : Buf (Elt Ideal) ((c.tc : Thread nD τ).loc main_v4) :=
  (mulf (Cert.ReferenceIdeal.ReadP.val_main_v2 (F := Ideal) (m ((c.tc : Thread nD τ).loc main_arg0))
      (m ((c.tc : Thread nD τ).loc main_arg3)) : FVec Ideal S2x128x64 .f32)
    (dice (IM m c) (TM m c) : FVec Ideal S2x128x64 .f32) : FVec Ideal S2x128x64 .f32)

set_option maxRecDepth 65536 in
/-- The host lines after the region leave that product in the result buffer: they read the first and fourth arguments,
    which the region does not touch, and the region's output array. -/
theorem tail_value (c : Dev nD) :
    Pipeline.afterTail₀ cfgs (dats m) 0 (V0 m) [hostOps1, hostOps1_1, hostOps1_2] c main_v4 = result m c := by
  unfold Pipeline.afterTail₀ result
  have hW0 : Pipeline.withArrays (cfgs 0).spec c (V0 m c) (fun w => (dats m 0 c).arrAt w (cfgs 0).N)
      (Proc.devRef .tc main_arg0) = m ((c.tc : Thread nD τ).loc main_arg0) :=
    (Pipeline.withArrays_of_ne _ c (V0 m c) _ main_arg0
      (by exact (by decide : ∀ w, Pipeline.arrRef spec0 w ≠ main_arg0))).trans (V_main_arg0 m c)
  have hW3 : Pipeline.withArrays (cfgs 0).spec c (V0 m c) (fun w => (dats m 0 c).arrAt w (cfgs 0).N)
      (Proc.devRef .tc main_arg3) = m ((c.tc : Thread nD τ).loc main_arg3) :=
    (Pipeline.withArrays_of_ne _ c (V0 m c) _ main_arg3
      (by exact (by decide : ∀ w, Pipeline.arrRef spec0 w ≠ main_arg3))).trans (V_main_arg3 m c)
  have hWv : Pipeline.withArrays (cfgs 0).spec c (V0 m c) (fun w => (dats m 0 c).arrAt w (cfgs 0).N)
      (Proc.devRef .tc main_v0) = dice (IM m c) (TM m c) :=
    (Pipeline.withArrays_arr spec0 launch0.win.arr_inj c _ _ 2).trans (region_out m c)
  generalize Pipeline.withArrays (cfgs 0).spec c (V0 m c) (fun w => (dats m 0 c).arrAt w (cfgs 0).N) = W
    at hW0 hW3 hWv ⊢
  simp only [hostOps1, hostOps1_1, hostOps1_2, List.flatten_cons, List.flatten_nil, List.append_nil, List.cons_append,
    List.nil_append]
  after_results_simp
  rw [hW0, hW3, hWv]
  rfl

/-- The kernel program's run: every weakly fair execution terminates with the result buffer at `result` and the five
    arguments unchanged. -/
theorem run : θ_run defs (onTc (τ := τ) (main (F := Ideal))) ⟨m, fun _ => 0, ρ⟩ (fun r => ∀ c : Dev nD,
      r.2.mem ((c.tc : Thread nD τ).loc main_v4) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v4 (Pipeline.mem_restRefs_of main_v4 (by decide) (by decide))).trans (tail_value m c),
      ((h c).2 main_arg0 (Pipeline.mem_restRefs_of main_arg0 (by decide) (by decide))).trans (W_main_arg0 m (dats m) c),
      ((h c).1 0).trans (((dats m 0 c).arrAt_in 0 rfl _).trans ((A_eq m c 0).trans (V_main_arg1 m c))),
      ((h c).1 1).trans (((dats m 0 c).arrAt_in 1 rfl _).trans ((A_eq m c 1).trans (V_main_arg2 m c))),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.KValue

end
-- ==== Proof.RefDice.lean ====
/-
  The reference's quotient, read entry by entry, is the dice similarity of its two mask arguments.

  The reference computes the intersections by one contraction over all 65536 positions, each cardinality by one sum
  over all positions started from the f32 zero, broadcasts the two cardinalities over the (row, target) pairs, and
  divides `2 · intersection + ε` by `cardinalities + ε`.  At an entry `(b, n, k)` each of these stages reads one entry
  of its operands, so the quotient there is the dice similarity `Cert.Dice.diceAt` of the arguments; the f32 zero the
  sums start from is the extended real `0`.
-/
import proofs.«175453_j41961830481930_1_alg».proof.Proof.RefRead
import proofs.«175453_j41961830481930_1_alg».proof.Proof.Dice

noncomputable section

namespace Cert.ReferenceIdeal.RefValue

open Cert.ReferenceIdeal Cert.ReferenceIdeal.ReadP Idealize.ShloMosaic Idealize.ShloMosaic.ValueIdx

/-- The reference's quotient stage is the dice similarity of its mask arguments. -/
theorem quotient_eq_dice (x1 : (⟨S2x128x65536, .f32⟩ : BufTy).Contents (Elt Ideal))
    (x2 : (⟨S2x64x65536, .f32⟩ : BufTy).Contents (Elt Ideal)) :
    val_main_v17 (F := Ideal) x1 x2 = Cert.Dice.dice x1 x2 := by
  funext i
  obtain ⟨b, n, k, rfl⟩ : ∃ (b : Fin 2) (n : Fin 128) (k : Fin 64), i = ix3 b n k := ⟨i 0, i 1, i 2, eq_ix3 i⟩
  have e1 : ∀ q : Fin 65536, lidx_main_v3 (ix3 b n k) q = ix3 b n q := fun q => funext fun a => Fin.ext (by
    match a with | ⟨0, _⟩ => rfl | ⟨1, _⟩ => rfl | ⟨2, _⟩ => rfl)
  have e2 : ∀ q : Fin 65536, ridx_main_v3 (ix3 b n k) q = ix3 b k q := fun q => funext fun a => Fin.ext (by
    match a with | ⟨0, _⟩ => rfl | ⟨1, _⟩ => rfl | ⟨2, _⟩ => rfl)
  have e3 : ∀ q : Fin 65536, idx_main_v4 (idx_main_v5 (idx_main_v8 (ix3 b n k))) q = ix3 b n q := fun q =>
    funext fun a => Fin.ext (by match a with | ⟨0, _⟩ => rfl | ⟨1, _⟩ => rfl | ⟨2, _⟩ => rfl)
  have e4 : ∀ q : Fin 65536, idx_main_v6 (idx_main_v7 (idx_main_v9 (ix3 b n k))) q = ix3 b k q := fun q =>
    funext fun a => Fin.ext (by match a with | ⟨0, _⟩ => rfl | ⟨1, _⟩ => rfl | ⟨2, _⟩ => rfl)
  rw [val_main_v17_apply, val_main_v14_apply, val_main_v16_apply, val_main_v12_apply, val_main_v10_apply,
    val_main_v11_apply, val_main_v13_apply, val_main_v15_apply, val_main_cst_1_apply, val_main_cst_2_apply,
    val_main_cst_3_apply, val_main_v3_apply, val_main_v8_apply, val_main_v5_apply, val_main_v4_apply,
    val_main_v9_apply, val_main_v7_apply, val_main_v6_apply, val_main_cst_apply, val_main_cst_0_apply]
  simp only [e1, e2, e3, e4, Ideal.hostDivf_def, Ideal.addf_def, Ideal.mulf_def, Ideal.ofBits_def,
    Ideal.ofBits_zero_f32, zero_add]
  rfl

end Cert.ReferenceIdeal.RefValue

end
-- ==== Proof.lean ====
/-
  The certificate of a dice-similarity kernel against its reference.

  Both programs return, for every batch `b`, predicted mask `n` and target `k`,

      class_prob[b, n, target_class[b, k]] · (2 · ∑_q IM[b,n,q] · TM[b,k,q] + ε) / ((∑_q IM[b,n,q] + ∑_q TM[b,k,q]) + ε).

  The first factor is gathered by the same host lines in both programs.  The second is the dice similarity
  (`Cert.Dice.dice`) of the two mask arrays.  The reference computes its three sums over all 65536 positions at once.  The
  kernel runs over a grid of 2 batches × 8 blocks of 8192 positions, keeps the three sums in accumulators carried from
  one grid point to the next, and writes a batch's quotient back at the batch's last point; its matrix product rounds the
  blocks to bf16 first, which on the extended reals is the identity.  A sum over 65536 positions is the sum over the 8
  blocks of each block's sum by associativity and commutativity alone, so the two results are equal on every extended
  real input and the precondition is never opened.

  The modules: `Dice` (the similarity and the block-by-block sums), `RefDice` (the reference's quotient is it),
  `Pieces` and `Payloads` (what the kernel body leaves, as values, and those values at an entry), `Accum` (the
  accumulators along the grid), `KernelValue` (the region's array, the host lines after it, the kernel program's run).
-/
import proofs.«175453_j41961830481930_1_alg».proof.Defs
import proofs.«175453_j41961830481930_1_alg».proof.Proof.Gen.Kernel
import proofs.«175453_j41961830481930_1_alg».proof.Proof.Gen.Kernel.Skeleton
import proofs.«175453_j41961830481930_1_alg».proof.Proof.Gen.Kernel.Launch
import proofs.«175453_j41961830481930_1_alg».proof.Proof.Gen.Kernel.Points
import proofs.«175453_j41961830481930_1_alg».proof.Proof.Gen.Kernel.Frame
import proofs.«175453_j41961830481930_1_alg».proof.Proof.Gen.KernelIdeal
import proofs.«175453_j41961830481930_1_alg».proof.Proof.Gen.KernelIdeal.Skeleton
import proofs.«175453_j41961830481930_1_alg».proof.Proof.Gen.KernelIdeal.Launch
import proofs.«175453_j41961830481930_1_alg».proof.Proof.Gen.KernelIdeal.Points
import proofs.«175453_j41961830481930_1_alg».proof.Proof.Gen.KernelIdeal.Frame
import proofs.«175453_j41961830481930_1_alg».proof.Proof.Gen.ReferenceIdeal
import proofs.«175453_j41961830481930_1_alg».proof.Proof.Gen.Pre_finite_inputs
import proofs.«175453_j41961830481930_1_alg».proof.Proof.KernelValue
import proofs.«175453_j41961830481930_1_alg».proof.Proof.RefDice
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The ideal pass rewrote nothing. -/
theorem preserves : Cert.preserves_Kernel_KernelIdeal := trivial

/-- Both programs end with the gathered class probabilities times the dice similarities of the masks: the kernel program
    by its run (`KValue.run`), the reference by its run read back, its quotient being the dice similarity
    (`RefValue.quotient_eq_dice`) and its arguments the kernel program's. -/
theorem algebraic : Cert.algebraic_KernelIdeal_ReferenceIdeal := by
  intro m ρ m' ρ' _ hagree
  refine ⟨fun c => Cert.KernelIdeal.KValue.result m c, Cert.KernelIdeal.KValue.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v18_eq, (hagree c).1, (hagree c).2.1, (hagree c).2.2.1, (hagree c).2.2.2.1]
  unfold Cert.ReferenceIdeal.ReadP.val_main_v18
  rw [Cert.ReferenceIdeal.RefValue.quotient_eq_dice]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
